-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : IVec S1600000 32) (main_arg6 : IVec S1600000 32) (main_arg7 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S100000x1 : Shape := ⟨2, ![100000, 1]⟩
abbrev S1x128 : Shape := ⟨2, ![1, 128]⟩
abbrev S5000x128 : Shape := ⟨2, ![5000, 128]⟩
abbrev S5000x1 : Shape := ⟨2, ![5000, 1]⟩
abbrev S1600000x128 : Shape := ⟨2, ![1600000, 128]⟩
abbrev S64x128 : Shape := ⟨2, ![64, 128]⟩
abbrev S64 : Shape := ⟨1, ![64]⟩
abbrev S64x1 : Shape := ⟨2, ![64, 1]⟩

abbrev nBuf : Space → Nat
  | .hbm => 87
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S1600000, .i32⟩
  | .hbm, ⟨6, _⟩ => ⟨S1600000, .i32⟩
  | .hbm, ⟨7, _⟩ => ⟨S100000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x1, .f32⟩
  | .hbm, ⟨40, _⟩ => ⟨S1x128, .f32⟩
  | .hbm, ⟨41, _⟩ => ⟨S1x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000x128, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x128, .f32⟩
  | .hbm, ⟨66, _⟩ => ⟨S_, .f32⟩
  | .hbm, ⟨67, _⟩ => ⟨S100000x128, .f32⟩
  | .hbm, ⟨68, _⟩ => ⟨S1600000x1, .i32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S64x128, .f32⟩
  | .hbm, ⟨73, _⟩ => ⟨S100000x1, .i32⟩
  | .hbm, ⟨74, _⟩ => ⟨S64x128, .f32⟩
  | .hbm, ⟨75, _⟩ => ⟨S_, .f32⟩
  | .hbm, ⟨76, _⟩ => ⟨S100000, .f32⟩
  | .hbm, ⟨77, _⟩ => ⟨S_, .f32⟩
  | .hbm, ⟨78, _⟩ => ⟨S64, .f32⟩
  | .hbm, ⟨79, _⟩ => ⟨S100000x1, .i32⟩
  | .hbm, ⟨80, _⟩ => ⟨S64, .f32⟩
  | .hbm, ⟨81, _⟩ => ⟨S_, .f32⟩
  | .hbm, ⟨82, _⟩ => ⟨S64, .f32⟩
  | .hbm, ⟨83, _⟩ => ⟨S64, .f32⟩
  | .hbm, ⟨84, _⟩ => ⟨S64x1, .f32⟩
  | .hbm, ⟨85, _⟩ => ⟨S64x128, .f32⟩
  | .hbm, ⟨86, _⟩ => ⟨S64x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S5000x1, .f32⟩
  | .local _ .vmem, ⟨21, _⟩ => ⟨S5000x1, .f32⟩
  | .local _ .vmem, ⟨22, _⟩ => ⟨S128x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v9 : Ref sig .tc := ⟨.hbm, 24, rfl⟩
abbrev main_cst_4 : Ref sig .tc := ⟨.hbm, 25, rfl⟩
abbrev main_v10 : Ref sig .tc := ⟨.hbm, 26, rfl⟩
abbrev main_v11 : Ref sig .tc := ⟨.hbm, 27, rfl⟩
abbrev main_cst_5 : Ref sig .tc := ⟨.hbm, 28, rfl⟩
abbrev main_v12 : Ref sig .tc := ⟨.hbm, 29, rfl⟩
abbrev main_v13 : Ref sig .tc := ⟨.hbm, 30, rfl⟩
abbrev main_cst_6 : Ref sig .tc := ⟨.hbm, 31, rfl⟩
abbrev main_call1_v0 : Ref sig .tc := ⟨.hbm, 32, rfl⟩
abbrev main_call1_v1 : Ref sig .tc := ⟨.hbm, 33, rfl⟩
abbrev main_v14 : Ref sig .tc := ⟨.hbm, 34, rfl⟩
abbrev main_cst_7 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c : Ref sig .tc := ⟨.hbm, 43, rfl⟩
abbrev main_v22 : Ref sig .tc := ⟨.hbm, 44, rfl⟩
abbrev main_v23 : Ref sig .tc := ⟨.hbm, 45, rfl⟩
abbrev main_c_8 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_9 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_10 : Ref sig .tc := ⟨.hbm, 57, rfl⟩
abbrev main_v33 : Ref sig .tc := ⟨.hbm, 58, rfl⟩
abbrev main_v34 : Ref sig .tc := ⟨.hbm, 59, rfl⟩
abbrev main_c_11 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_12 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_13 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_14 : Ref sig .tc := ⟨.hbm, 75, rfl⟩
abbrev main_v47 : Ref sig .tc := ⟨.hbm, 76, rfl⟩
abbrev main_cst_15 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_16 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg3) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S64x128 : Shape := ⟨2, ![64, 128]⟩
abbrev S64 : Shape := ⟨1, ![64]⟩
abbrev S64x1 : Shape := ⟨2, ![64, 1]⟩

abbrev nBuf : Space → Nat
  | .hbm => 103
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S1600000, .i32⟩
  | .hbm, ⟨6, _⟩ => ⟨S1600000, .i32⟩
  | .hbm, ⟨7, _⟩ => ⟨S100000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S100000x1, .f32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S100000x128, .f32⟩
  | .hbm, ⟨63, _⟩ => ⟨S100000x128, .f32⟩
  | .hbm, ⟨64, _⟩ => ⟨S100000x1, .f32⟩
  | .hbm, ⟨65, _⟩ => ⟨S100000x128, .f32⟩
  | .hbm, ⟨66, _⟩ => ⟨S100000x128, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .f32⟩
  | .hbm, ⟨76, _⟩ => ⟨S_, .f32⟩
  | .hbm, ⟨77, _⟩ => ⟨S100000x128, .f32⟩
  | .hbm, ⟨78, _⟩ => ⟨S1600000x1, .i32⟩
  | .hbm, ⟨79, _⟩ => ⟨S100000x128, .f32⟩
  | .hbm, ⟨80, _⟩ => ⟨S100000x1, .f32⟩
  | .hbm, ⟨81, _⟩ => ⟨S100000x128, .f32⟩
  | .hbm, ⟨82, _⟩ => ⟨S100000x128, .f32⟩
  | .hbm, ⟨83, _⟩ => ⟨S100000x128, .f32⟩
  | .hbm, ⟨84, _⟩ => ⟨S1x128, .f32⟩
  | .hbm, ⟨85, _⟩ => ⟨S100000x128, .f32⟩
  | .hbm, ⟨86, _⟩ => ⟨S100000x128, .f32⟩
  | .hbm, ⟨87, _⟩ => ⟨S_, .f32⟩
  | .hbm, ⟨88, _⟩ => ⟨S64x128, .f32⟩
  | .hbm, ⟨89, _⟩ => ⟨S100000x1, .i32⟩
  | .hbm, ⟨90, _⟩ => ⟨S64x128, .f32⟩
  | .hbm, ⟨91, _⟩ => ⟨S_, .f32⟩
  | .hbm, ⟨92, _⟩ => ⟨S100000, .f32⟩
  | .hbm, ⟨93, _⟩ => ⟨S_, .f32⟩
  | .hbm, ⟨94, _⟩ => ⟨S64, .f32⟩
  | .hbm, ⟨95, _⟩ => ⟨S100000x1, .i32⟩
  | .hbm, ⟨96, _⟩ => ⟨S64, .f32⟩
  | .hbm, ⟨97, _⟩ => ⟨S_, .f32⟩
  | .hbm, ⟨98, _⟩ => ⟨S64, .f32⟩
  | .hbm, ⟨99, _⟩ => ⟨S64, .f32⟩
  | .hbm, ⟨100, _⟩ => ⟨S64x1, .f32⟩
  | .hbm, ⟨101, _⟩ => ⟨S64x128, .f32⟩
  | .hbm, ⟨102, _⟩ => ⟨S64x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v9 : Ref sig .tc := ⟨.hbm, 24, rfl⟩
abbrev main_cst_4 : Ref sig .tc := ⟨.hbm, 25, rfl⟩
abbrev main_v10 : Ref sig .tc := ⟨.hbm, 26, rfl⟩
abbrev main_v11 : Ref sig .tc := ⟨.hbm, 27, rfl⟩
abbrev main_cst_5 : Ref sig .tc := ⟨.hbm, 28, rfl⟩
abbrev main_v12 : Ref sig .tc := ⟨.hbm, 29, rfl⟩
abbrev main_v13 : Ref sig .tc := ⟨.hbm, 30, rfl⟩
abbrev main_cst_6 : Ref sig .tc := ⟨.hbm, 31, rfl⟩
abbrev main_call1_v0 : Ref sig .tc := ⟨.hbm, 32, rfl⟩
abbrev main_call1_v1 : Ref sig .tc := ⟨.hbm, 33, rfl⟩
abbrev main_v14 : Ref sig .tc := ⟨.hbm, 34, rfl⟩
abbrev main_cst_7 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c : Ref sig .tc := ⟨.hbm, 41, rfl⟩
abbrev main_v20 : Ref sig .tc := ⟨.hbm, 42, rfl⟩
abbrev main_v21 : Ref sig .tc := ⟨.hbm, 43, rfl⟩
abbrev main_c_8 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_9 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_call2_cst : Ref sig .tc := ⟨.hbm, 61, rfl⟩
abbrev main_call2_v0 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_10 : Ref sig .tc := ⟨.hbm, 67, rfl⟩
abbrev main_v41 : Ref sig .tc := ⟨.hbm, 68, rfl⟩
abbrev main_v42 : Ref sig .tc := ⟨.hbm, 69, rfl⟩
abbrev main_c_11 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_12 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_13 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_14 : Ref sig .tc := ⟨.hbm, 91, rfl⟩
abbrev main_v61 : Ref sig .tc := ⟨.hbm, 92, rfl⟩
abbrev main_cst_15 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_16 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.KernelRun.lean ====
/-
  The idealized kernel's run with its result named.  The program is three tiled regions among stretches of
  host operations; its generated frame run ends in a thread state that holds every unscoped buffer at the
  contents of the last boundary of the fold through the program.  Reading that state at the result buffer as
  well as at the eight argument buffers gives the run below: the result ends at the last boundary's contents,
  the arguments as launched.  What those contents are is computed elsewhere, boundary by boundary.
-/
import proofs.«115869_j75265006895359_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the contents of the last
    boundary, and the argument arrays end as launched. -/
theorem run_last : θ_run defs (onTc (τ := τ) (main (F := F))) ⟨m, fun _ => 0, ρ⟩ (fun r => ∀ c : Dev nD,
      r.2.mem ((c.tc : Thread nD τ).loc main_v55) = W11 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v55 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.Hand

end
-- ==== Proof.BlockOps.lean ====
/-
  The layout operations of a [5000, 128] block read at row p, column q, at the ideal instance: a [5000, 1] column
  broadcast along the 128 places is the row's entry, a [1, 128] row broadcast down the 5000 rows is the column's entry,
  and the block's product with a [128, 128] matrix into a zero accumulator is the plain sum over the 128 inner places.
  Also where a block sits in its array: point t of the 20-point grid owns rows 5000·t … 5000·t + 4999.
-/
import proofs.«115869_j75265006895359_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

theorem zero_off : (![0, 0] : Fin 2 → Nat) = fun _ => 0 := funext fun a => by fin_cases a <;> rfl

/-- A column block broadcast along the rows' 128 places reads the row's entry. -/
theorem colBroadcast_apply (x : S5000x1.Idx → EReal) (h : S5000x1.Broadcasts S5000x128) (p : Fin 5000) (q : Fin 128) :
    broadcastTo S5000x128 x h (ix2 p q) = x (ix2 p (0 : Fin 1)) :=
  broadcastTo_apply x h (ix2 p q) (ix2 p (0 : Fin 1)) fun a => by
    match a with
    | ⟨0, _⟩ => rfl
    | ⟨1, _⟩ => rfl

/-- A row broadcast down the block's 5000 rows reads the column's entry. -/
theorem rowBroadcast_apply (x : S1x128.Idx → EReal) (h : S1x128.Broadcasts S5000x128) (p : Fin 5000) (q : Fin 128) :
    broadcastTo S5000x128 x h (ix2 p q) = x (ix2 (0 : Fin 1) q) :=
  broadcastTo_apply x h (ix2 p q) (ix2 (0 : Fin 1) q) fun a => by
    match a with
    | ⟨0, _⟩ => rfl
    | ⟨1, _⟩ => rfl

/-- The block's matrix product into a zero accumulator, at row p and column q: the sum over the inner index k of
    the left factor at (p, k) times the right factor at (k, q). -/
theorem blockMatmul_apply {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ =>
        show (dot_S5000x128_S128x128_S5000x128_1_0_0_1_n_n.lhsIdx (ix2 p q) _ 0).val = p.val
        unfold DotDims.lhsIdx
        rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
        rfl
      | ⟨1, _⟩ => exact (dot_S5000x128_S128x128_S5000x128_1_0_0_1_n_n.lhsIdx_val_of_single rfl (ix2 p q) _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (dot_S5000x128_S128x128_S5000x128_1_0_0_1_n_n.rhsIdx_val_of_single rfl (ix2 p q) _).trans hk
      | ⟨1, _⟩ =>
        show (dot_S5000x128_S128x128_S5000x128_1_0_0_1_n_n.rhsIdx (ix2 p q) _ 1).val = q.val
        unfold DotDims.rhsIdx
        rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
        rfl)
  rw [el, er]

/-- The array row that row p of the block at grid point t is: 5000·t + p (the grid has 20 points). -/
def rowAt (t : Fin 20) (p : Fin 5000) : Fin 100000 := ⟨t.val * 5000 + p.val, by have := t.isLt; have := p.isLt; omega⟩

/-- Every array row is some point's: row r is row r mod 5000 of the block at point r / 5000. -/
theorem rowAt_div_mod (r : Fin 100000) :
    rowAt ⟨r.val / 5000, by have := r.isLt; omega⟩ ⟨r.val % 5000, Nat.mod_lt _ (by decide)⟩ = r :=
  Fin.ext (by show r.val / 5000 * 5000 + r.val % 5000 = r.val; omega)

end Cert.KernelIdeal.Hand

end
-- ==== Proof.RowScale.lean ====
/-
  The first tiled region: every row of a [100000, 128] array multiplied by that row's entry of a [100000, 1] column.
  The grid has 20 points; point t works on rows 5000·t … 5000·t + 4999, all 128 columns, and the column's block at t
  is the same rows.  So the block a point writes back is the block of ONE whole-array function, `rowScaled`, and
  the 20 blocks tile the array: after the region the output array is `rowScaled` of the two arrays the region found.
-/
import proofs.«115869_j75265006895359_1_alg».proof.Proof.Gen.KernelIdeal.Frame
import proofs.«115869_j75265006895359_1_alg».proof.Proof.BlockOps
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-- Row i of `x` times the i-th entry of the column `n`. -/
def rowScaled (x : S100000x128.Idx → EReal) (n : S100000x1.Idx → EReal) : S100000x128.Idx → EReal :=
  fun i => x i * n (ix2 (i 0) (0 : Fin 1))

/-- The body's stored value at row p, column q of the block: the feature times the row's column entry. -/
theorem scale_pay (x0 : Vec Ideal S5000x128 .f32) (x1 : Vec Ideal S5000x1 .f32) (p : Fin 5000) (q : Fin 128) :
    k0_pay1 x0 x1 (ix2 p q) = x0 (ix2 p q) * x1 (ix2 p (0 : Fin 1)) := by
  unfold k0_pay1
  refine (mulf_apply _ _ _).trans ?_
  refine congrArg (x0 (ix2 p q) * ·) ?_
  refine (colBroadcast_apply _ _ p q).trans ?_
  rw [shapeCast_self]

/-- The three windows' index maps over the grid: point t is block row t, block column 0. -/
theorem scale_idx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- What point t writes back is block t of `rowScaled` of the arrays the region found. -/
theorem scale_flushed (c : Dev nD) (t : Fin cfg0.N) :
    (dat0 V c).flushed 2 t = ((cfg0.win 2).blk t).view.read (Elt Ideal) (rowScaled (V c main_arg0) (V c main_v17)) := by
  show (cfg0.win 2).cut (grid0.coords t) ((dat0 V c).after 2 t) = _
  rw [after0_2]
  unfold out0_2
  rw [View.canon_unit_zero zero_off]
  simp only [View.ld_unit_zero (S := S5000x128) zero_off, View.ld_unit_zero (S := S5000x1) zero_off]
  obtain ⟨e0, e1, e2, e3, e4, e5⟩ := scale_idx t
  have ht : t.val < 20 := Nat.lt_of_lt_of_eq t.isLt (show cfg0.N = 20 from N_0)
  funext j
  obtain ⟨p, q, rfl⟩ : ∃ (p : Fin 5000) (q : Fin 128), j = ix2 p q := ⟨j 0, j 1, eq_ix2 j⟩
  have hE : ((cfg0.win 2).blk t).view.emb (ix2 p q) = ix2 (rowAt ⟨t.val, ht⟩ p) q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  show k0_pay1 (iblk0 V c 0 t) (iblk0 V c 1 t) (ix2 p q)
    = rowScaled (V c main_arg0) (V c main_v17) (((cfg0.win 2).blk t).view.emb (ix2 p q))
  rw [hE]
  refine (scale_pay (iblk0 V c 0 t) (iblk0 V c 1 t) p q).trans ?_
  have hX : (iblk0 V c 0 t : Vec Ideal S5000x128 .f32) (ix2 p q) = (V c main_arg0 : S100000x128.Idx → EReal) (ix2 (rowAt ⟨t.val, ht⟩ p) q) := by
    show (V c main_arg0 : S100000x128.Idx → EReal) (((cfg0.win 0).blk t).view.emb (ix2 p q)) = _
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * q.val = q.val; omega
  have hN : (iblk0 V c 1 t : Vec Ideal S5000x1 .f32) (ix2 p (0 : Fin 1)) = (V c main_v17 : S100000x1.Idx → EReal) (ix2 (rowAt ⟨t.val, ht⟩ p) (0 : Fin 1)) := by
    show (V c main_v17 : S100000x1.Idx → EReal) (((cfg0.win 1).blk t).view.emb (ix2 p (0 : Fin 1))) = _
    refine congrArg _ (funext fun a => Fin.ext ?_)
    match a with
    | ⟨0, _⟩ => show win0_1.index t (0 : Fin 2) * 5000 + 1 * p.val = t.val * 5000 + p.val; omega
    | ⟨1, _⟩ => show win0_1.index t (1 : Fin 2) * 1 + 1 * 0 = 0; omega
  exact congrArg₂ (· * ·) hX hN

/-- An index of the array is in point t's block iff each coordinate is in the block's range on its axis. -/
theorem scale_mem (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v21).slice (win0_2.rect t)).set ↔ _
  rw [View.set_slice_whole, Rect.mem_set_unit]
  exact Iff.rfl

/-- Every index of the array lies in the block of the point that owns its row. -/
theorem scale_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hlt : (i 0).val / 5000 < cfg0.N := by rw [show cfg0.N = 20 from N_0]; omega
  obtain ⟨e0, e1, e2, e3, e4, e5⟩ := scale_idx ⟨(i 0).val / 5000, hlt⟩
  refine ⟨⟨(i 0).val / 5000, hlt⟩, flush0_2 _, ?_⟩
  rw [scale_mem]
  intro a
  match a with
  | ⟨0, _⟩ =>
    show win0_2.index ⟨(i 0).val / 5000, hlt⟩ (0 : Fin 2) * 5000 ≤ (i 0).val
      ∧ (i 0).val < win0_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hlt⟩ (1 : Fin 2) * 128 ≤ (i 1).val
      ∧ (i 1).val < win0_2.index ⟨(i 0).val / 5000, hlt⟩ (1 : Fin 2) * 128 + 128
    rw [e5]; omega

/-- After the region its output array is `rowScaled` of the two arrays it found. -/
theorem scale_array (c : Dev nD) :
    (dat0 V c).arrAt 2 cfg0.N = rowScaled (V c main_arg0) (V c main_v17) :=
  (dat0 V c).arrAt_eq_of_cover 2 (rowScaled (V c main_arg0) (V c main_v17)) (fun t _ => scale_flushed V c t) (scale_cover)

end

end Cert.KernelIdeal.Hand

end
-- ==== Proof.DenseLayer.lean ====
/-
  The arithmetic the two dense regions share.  Both bodies scale each row of a [5000, 128] block by the row's entry of
  a column, multiply by a [128, 128] matrix and add a row: at row p, column q that is
      ∑ k, (x (p, k) · d (p)) · W (k, q)  +  b (q).
  (The bodies narrow the factors to bf16 before the product; at the ideal instance a change of format is the identity.)
  The first dense body then takes the maximum with 0 and scales the row by a second column's entry; the second stores
  the sum as it is.  `affineRows` and `reluScaled` are the same formulas over whole [100000, 128] arrays.
-/
import proofs.«115869_j75265006895359_1_alg».proof.Proof.Gen.KernelIdeal.Frame
import Idealize.ShloMosaic.Lib.Pipeline.Value
import Idealize.ShloMosaic.Lib.ValueIdx
import Idealize.ShloMosaic.PureOps.Ideal.Laws
import proofs.«115869_j75265006895359_1_alg».proof.Proof.BlockOps

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-- The part the two dense bodies share: rows scaled, times the matrix, plus the row. -/
def densePay (x0 : Vec Ideal S5000x128 .f32) (x1 : Vec Ideal S5000x1 .f32) (x3 : Vec Ideal S128x128 .f32) (x4 : Vec Ideal S1x128 .f32) :
    FVec Ideal S5000x128 .f32 :=
  addf (matmul dot_S5000x128_S128x128_S5000x128_1_0_0_1_n_n none
      (truncf .bf16 (mulf (shapeCast S5000x128 x0 shapeCasts_S5000x128_S5000x128)
        (broadcastTo S5000x128 (shapeCast S5000x1 x1 shapeCasts_S5000x1_S5000x1) broadcasts_S5000x1_S5000x128)) bitsLt_bf16_f32)
      (truncf .bf16 x3 bitsLt_bf16_f32) (constant S5000x128 .f32 0x00000000#32))
    (broadcastTo S5000x128 (shapeCast S1x128 x4 shapeCasts_S1x128_S1x128) broadcasts_S1x128_S5000x128)

/-- The second dense body stores exactly that. -/
theorem plain_pay_eq (x0 : Vec Ideal S5000x128 .f32) (x1 : Vec Ideal S5000x1 .f32) (x3 : Vec Ideal S128x128 .f32) (x4 : Vec Ideal S1x128 .f32) :
    k2_pay1 x0 x1 x3 x4 = densePay x0 x1 x3 x4 := rfl

/-- The first dense body stores its maximum with zero, each row then scaled by a second column's entry. -/
theorem relu_pay_eq (x0 : Vec Ideal S5000x128 .f32) (x1 : Vec Ideal S5000x1 .f32) (x3 : Vec Ideal S128x128 .f32) (x4 : Vec Ideal S1x128 .f32)
    (x2 : Vec Ideal S5000x1 .f32) :
    k1_pay1 x0 x1 x3 x4 x2 = mulf (maximumf (densePay x0 x1 x3 x4) (broadcast S5000x128 (Scalar.ofBits .f32 0x00000000#32)))
      (broadcastTo S5000x128 (shapeCast S5000x1 x2 shapeCasts_S5000x1_S5000x1) broadcasts_S5000x1_S5000x128) := rfl

/-- The shared part at row p, column q. -/
theorem densePay_apply (x0 : Vec Ideal S5000x128 .f32) (x1 : Vec Ideal S5000x1 .f32) (x3 : Vec Ideal S128x128 .f32) (x4 : Vec Ideal S1x128 .f32)
    (p : Fin 5000) (q : Fin 128) :
    densePay x0 x1 x3 x4 (ix2 p q)
      = (∑ k : Fin 128, (x0 (ix2 p k) * x1 (ix2 p (0 : Fin 1))) * x3 (ix2 k q)) + x4 (ix2 (0 : Fin 1) q) := by
  unfold densePay
  refine (addf_apply _ _ _).trans ?_
  refine congrArg₂ (· + ·) ?_ ?_
  · refine (blockMatmul_apply _ _ p q).trans ?_
    refine Finset.sum_congr rfl fun k _ => ?_
    refine congrArg₂ (· * ·) ?_ rfl
    show (shapeCast S5000x128 x0 shapeCasts_S5000x128_S5000x128) (ix2 p k)
        * (broadcastTo S5000x128 (shapeCast S5000x1 x1 shapeCasts_S5000x1_S5000x1) broadcasts_S5000x1_S5000x128) (ix2 p k) = _
    rw [shapeCast_self, shapeCast_self]
    exact congrArg (x0 (ix2 p k) * ·) (colBroadcast_apply _ _ p k)
  · refine (rowBroadcast_apply _ _ p q).trans ?_
    rw [shapeCast_self]

/-- The second dense body's stored value at row p, column q. -/
theorem plain_pay (x0 : Vec Ideal S5000x128 .f32) (x1 : Vec Ideal S5000x1 .f32) (x3 : Vec Ideal S128x128 .f32) (x4 : Vec Ideal S1x128 .f32)
    (p : Fin 5000) (q : Fin 128) :
    k2_pay1 x0 x1 x3 x4 (ix2 p q)
      = (∑ k : Fin 128, (x0 (ix2 p k) * x1 (ix2 p (0 : Fin 1))) * x3 (ix2 k q)) + x4 (ix2 (0 : Fin 1) q) := by
  rw [plain_pay_eq]; exact densePay_apply x0 x1 x3 x4 p q

/-- The first dense body's stored value at row p, column q. -/
theorem relu_pay (x0 : Vec Ideal S5000x128 .f32) (x1 : Vec Ideal S5000x1 .f32) (x3 : Vec Ideal S128x128 .f32) (x4 : Vec Ideal S1x128 .f32)
    (x2 : Vec Ideal S5000x1 .f32) (p : Fin 5000) (q : Fin 128) :
    k1_pay1 x0 x1 x3 x4 x2 (ix2 p q)
      = max ((∑ k : Fin 128, (x0 (ix2 p k) * x1 (ix2 p (0 : Fin 1))) * x3 (ix2 k q)) + x4 (ix2 (0 : Fin 1) q))
          (Ideal.ofBits .f32 0x00000000#32) * x2 (ix2 p (0 : Fin 1)) := by
  rw [relu_pay_eq]
  refine (mulf_apply _ _ _).trans ?_
  refine congrArg₂ (· * ·) ?_ ?_
  · refine (maximumf_apply _ _ _).trans ?_
    exact congrArg₂ max (densePay_apply x0 x1 x3 x4 p q) rfl
  · refine (colBroadcast_apply _ _ p q).trans ?_
    rw [shapeCast_self]

/-- Over whole arrays: row i scaled by the i-th entry of `nd`, times the matrix, plus the row `b`. -/
def affineRows (a : S100000x128.Idx → EReal) (nd : S100000x1.Idx → EReal) (W : S128x128.Idx → EReal) (b : S1x128.Idx → EReal) :
    S100000x128.Idx → EReal :=
  fun i => (∑ k : Fin 128, (a (ix2 (n0 := 100000) (i 0) k) * nd (ix2 (n0 := 100000) (i 0) (0 : Fin 1))) * W (ix2 k (n1 := 128) (i 1)))
    + b (ix2 (0 : Fin 1) (n1 := 128) (i 1))

/-- Over whole arrays: the maximum of `affineRows` with zero, row i then scaled by the i-th entry of `ns`. -/
def reluScaled (a : S100000x128.Idx → EReal) (nd ns : S100000x1.Idx → EReal) (W : S128x128.Idx → EReal) (b : S1x128.Idx → EReal) :
    S100000x128.Idx → EReal :=
  fun i => max (affineRows a nd W b i) (Ideal.ofBits .f32 0x00000000#32) * ns (ix2 (n0 := 100000) (i 0) (0 : Fin 1))

end Cert.KernelIdeal.Hand

end
-- ==== Proof.Bridge.lean ====
/-
  The three tiled regions against the reference's host operations, index by index.
  The kernel hands each region its two degree normalisations as [100000, 1] columns made by a reshape, and the two
  biases as [1, 128] rows made by a reshape, where the reference broadcasts a vector along a new axis: at an index both
  read the vector's entry.  With that,
    * the first region's `rowScaled` is the reference's product of the features with the broadcast normalisation;
    * the second region's `reluScaled` is the reference's first layer — the aggregated rows scaled, times the weight
      matrix (the host's dot_general is the same sum over the 128 inner places), plus the bias, the maximum with zero —
      followed by the scaling the reference applies at the start of its second layer;
    * the third region's `affineRows` is the reference's second layer.
  No law of the extended reals is needed beyond reading both sides at an index: the two sides are the same expression.
-/
import proofs.«115869_j75265006895359_1_alg».proof.Proof.Gen.KernelIdeal.Frame
import Idealize.ShloMosaic.Lib.Pipeline.Value
import Idealize.ShloMosaic.Lib.ValueIdx
import Idealize.ShloMosaic.PureOps.Ideal.Laws
import proofs.«115869_j75265006895359_1_alg».proof.Proof.BlockOps
import proofs.«115869_j75265006895359_1_alg».proof.Proof.RowScale
import proofs.«115869_j75265006895359_1_alg».proof.Proof.DenseLayer
import proofs.«115869_j75265006895359_1_alg».proof.Proof.RefRead

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-- A vector of 100000 entries reshaped to a [100000, 1] column. -/
def colOf (v : S100000.Idx → EReal) : S100000x1.Idx → EReal :=
  fun i => shapeCast S100000x1 v shapeCasts_S100000_S100000x1 i

/-- A vector of 128 entries reshaped to a [1, 128] row. -/
def rowOf (v : S128.Idx → EReal) : S1x128.Idx → EReal :=
  fun i => shapeCast S1x128 v shapeCasts_S128_S1x128 i

/-- The column's entry in row r is the vector's r-th entry. -/
theorem colOf_apply (v : S100000.Idx → EReal) (r : Fin 100000) : colOf v (ix2 r (0 : Fin 1)) = v (ix1 r) :=
  shapeCast_apply v shapeCasts_S100000_S100000x1 (ix2 r (0 : Fin 1)) (ix1 r) (by
    rw [Shape.rowMajor_val_one, Shape.rowMajor_val_two]
    show r.val = r.val * 1 + 0
    omega)

/-- The row's entry in column q is the vector's q-th entry. -/
theorem rowOf_apply (v : S128.Idx → EReal) (q : Fin 128) : rowOf v (ix2 (0 : Fin 1) q) = v (ix1 q) :=
  shapeCast_apply v shapeCasts_S128_S1x128 (ix2 (0 : Fin 1) q) (ix1 q) (by
    rw [Shape.rowMajor_val_one, Shape.rowMajor_val_two]
    show q.val = 0 * 128 + q.val
    omega)

section
variable (x0 : S100000x128.Idx → EReal) (x1 x3 : S128x128.Idx → EReal) (x2 x4 : S128.Idx → EReal) (x5 x6 : (⟨S1600000, .i32⟩ : BufTy).Contents (Elt Ideal))

/-- The first region against the reference's first product. -/
theorem scale_bridge :
    rowScaled x0 (colOf (Cert.ReferenceIdeal.ReadP.val_main_v11 (F := Ideal) x5)) = Cert.ReferenceIdeal.ReadP.val_main_v19 (F := Ideal) x0 x5 := by
  funext i
  obtain ⟨r, q, rfl⟩ : ∃ (r : Fin 100000) (q : Fin 128), i = ix2 r q := ⟨i 0, i 1, eq_ix2 i⟩
  rw [Cert.ReferenceIdeal.ReadP.val_main_v19_apply, Cert.ReferenceIdeal.ReadP.val_main_v18_apply, Cert.ReferenceIdeal.ReadP.val_main_v17_apply]
  show x0 (ix2 r q) * colOf (Cert.ReferenceIdeal.ReadP.val_main_v11 (F := Ideal) x5) (ix2 r (0 : Fin 1))
    = x0 (ix2 r q) * Cert.ReferenceIdeal.ReadP.val_main_v11 (F := Ideal) x5 (Cert.ReferenceIdeal.ReadP.idx_main_v17 (Cert.ReferenceIdeal.ReadP.idx_main_v18 (ix2 r q)))
  rw [colOf_apply]
  exact congrArg (x0 (ix2 r q) * ·) (congrArg _ (funext fun a => Fin.ext (by match a with | ⟨0, _⟩ => rfl)))

/-- The reference's scaled aggregate of the first layer at row r, inner place k. -/
theorem agg1_apply (r : Fin 100000) (k : Fin 128) :
    Cert.ReferenceIdeal.ReadP.val_main_v32 (F := Ideal) x0 x5 x6 (ix2 r k)
      = Cert.ReferenceIdeal.ReadP.val_main_v29 (F := Ideal) x0 x5 x6 (ix2 r k) * Cert.ReferenceIdeal.ReadP.val_main_v16 (F := Ideal) x6 (ix1 r) := by
  rw [Cert.ReferenceIdeal.ReadP.val_main_v32_apply, Cert.ReferenceIdeal.ReadP.val_main_v31_apply, Cert.ReferenceIdeal.ReadP.val_main_v30_apply]
  exact congrArg (Cert.ReferenceIdeal.ReadP.val_main_v29 (F := Ideal) x0 x5 x6 (ix2 r k) * ·) (congrArg _ (funext fun a => Fin.ext (by match a with | ⟨0, _⟩ => rfl)))

/-- The second region against the reference's first layer and the scaling that opens its second. -/
theorem relu_bridge :
    reluScaled (Cert.ReferenceIdeal.ReadP.val_main_v29 (F := Ideal) x0 x5 x6) (colOf (Cert.ReferenceIdeal.ReadP.val_main_v16 (F := Ideal) x6))
        (colOf (Cert.ReferenceIdeal.ReadP.val_main_v11 (F := Ideal) x5)) x1 (rowOf x2)
      = Cert.ReferenceIdeal.ReadP.val_main_v40 (F := Ideal) x0 x1 x2 x5 x6 := by
  funext i
  obtain ⟨r, q, rfl⟩ : ∃ (r : Fin 100000) (q : Fin 128), i = ix2 r q := ⟨i 0, i 1, eq_ix2 i⟩
  rw [Cert.ReferenceIdeal.ReadP.val_main_v40_apply, Cert.ReferenceIdeal.ReadP.val_main_v37_apply, Cert.ReferenceIdeal.ReadP.val_main_v36_apply, Cert.ReferenceIdeal.ReadP.val_main_v33_apply,
    Cert.ReferenceIdeal.ReadP.val_main_v35_apply, Cert.ReferenceIdeal.ReadP.val_main_v34_apply, Cert.ReferenceIdeal.ReadP.val_main_call2_v0_apply, Cert.ReferenceIdeal.ReadP.val_main_call2_cst_apply,
    Cert.ReferenceIdeal.ReadP.val_main_v39_apply, Cert.ReferenceIdeal.ReadP.val_main_v38_apply]
  have hl : ∀ k : Fin 128, Cert.ReferenceIdeal.ReadP.lidx_main_v33 (ix2 r q) k = ix2 r k := fun k => funext fun a => Fin.ext (by match a with | ⟨0, _⟩ => rfl | ⟨1, _⟩ => rfl)
  have hr : ∀ k : Fin 128, Cert.ReferenceIdeal.ReadP.ridx_main_v33 (ix2 r q) k = ix2 k q := fun k => funext fun a => Fin.ext (by match a with | ⟨0, _⟩ => rfl | ⟨1, _⟩ => rfl)
  have hb : Cert.ReferenceIdeal.ReadP.idx_main_v34 (Cert.ReferenceIdeal.ReadP.idx_main_v35 (ix2 r q)) = ix1 q := funext fun a => Fin.ext (by match a with | ⟨0, _⟩ => rfl)
  have hs : Cert.ReferenceIdeal.ReadP.idx_main_v38 (Cert.ReferenceIdeal.ReadP.idx_main_v39 (ix2 r q)) = ix1 r := funext fun a => Fin.ext (by match a with | ⟨0, _⟩ => rfl)
  simp only [hl, hr, hb, hs, agg1_apply]
  show max ((∑ k : Fin 128, (Cert.ReferenceIdeal.ReadP.val_main_v29 (F := Ideal) x0 x5 x6 (ix2 r k) * colOf (Cert.ReferenceIdeal.ReadP.val_main_v16 (F := Ideal) x6) (ix2 r (0 : Fin 1))) * x1 (ix2 k q))
      + rowOf x2 (ix2 (0 : Fin 1) q)) (Ideal.ofBits .f32 0x00000000#32) * colOf (Cert.ReferenceIdeal.ReadP.val_main_v11 (F := Ideal) x5) (ix2 r (0 : Fin 1)) = _
  rw [colOf_apply, colOf_apply, rowOf_apply]
  rfl

/-- The reference's scaled aggregate of the second layer at row r, inner place k. -/
theorem agg2_apply (r : Fin 100000) (k : Fin 128) :
    Cert.ReferenceIdeal.ReadP.val_main_v53 (F := Ideal) x0 x1 x2 x5 x6 (ix2 r k)
      = Cert.ReferenceIdeal.ReadP.val_main_v50 (F := Ideal) x0 x1 x2 x5 x6 (ix2 r k) * Cert.ReferenceIdeal.ReadP.val_main_v16 (F := Ideal) x6 (ix1 r) := by
  rw [Cert.ReferenceIdeal.ReadP.val_main_v53_apply, Cert.ReferenceIdeal.ReadP.val_main_v52_apply, Cert.ReferenceIdeal.ReadP.val_main_v51_apply]
  exact congrArg (Cert.ReferenceIdeal.ReadP.val_main_v50 (F := Ideal) x0 x1 x2 x5 x6 (ix2 r k) * ·) (congrArg _ (funext fun a => Fin.ext (by match a with | ⟨0, _⟩ => rfl)))

/-- The third region against the reference's second layer. -/
theorem plain_bridge :
    affineRows (Cert.ReferenceIdeal.ReadP.val_main_v50 (F := Ideal) x0 x1 x2 x5 x6) (colOf (Cert.ReferenceIdeal.ReadP.val_main_v16 (F := Ideal) x6)) x3 (rowOf x4)
      = Cert.ReferenceIdeal.ReadP.val_main_v57 (F := Ideal) x0 x1 x2 x3 x4 x5 x6 := by
  funext i
  obtain ⟨r, q, rfl⟩ : ∃ (r : Fin 100000) (q : Fin 128), i = ix2 r q := ⟨i 0, i 1, eq_ix2 i⟩
  rw [Cert.ReferenceIdeal.ReadP.val_main_v57_apply, Cert.ReferenceIdeal.ReadP.val_main_v54_apply, Cert.ReferenceIdeal.ReadP.val_main_v56_apply, Cert.ReferenceIdeal.ReadP.val_main_v55_apply]
  have hl : ∀ k : Fin 128, Cert.ReferenceIdeal.ReadP.lidx_main_v54 (ix2 r q) k = ix2 r k := fun k => funext fun a => Fin.ext (by match a with | ⟨0, _⟩ => rfl | ⟨1, _⟩ => rfl)
  have hr : ∀ k : Fin 128, Cert.ReferenceIdeal.ReadP.ridx_main_v54 (ix2 r q) k = ix2 k q := fun k => funext fun a => Fin.ext (by match a with | ⟨0, _⟩ => rfl | ⟨1, _⟩ => rfl)
  have hb : Cert.ReferenceIdeal.ReadP.idx_main_v55 (Cert.ReferenceIdeal.ReadP.idx_main_v56 (ix2 r q)) = ix1 q := funext fun a => Fin.ext (by match a with | ⟨0, _⟩ => rfl)
  simp only [hl, hr, hb, agg2_apply]
  show (∑ k : Fin 128, (Cert.ReferenceIdeal.ReadP.val_main_v50 (F := Ideal) x0 x1 x2 x5 x6 (ix2 r k) * colOf (Cert.ReferenceIdeal.ReadP.val_main_v16 (F := Ideal) x6) (ix2 r (0 : Fin 1))) * x3 (ix2 k q))
      + rowOf x4 (ix2 (0 : Fin 1) q) = _
  rw [colOf_apply, rowOf_apply]
  rfl

end

end Cert.KernelIdeal.Hand

end
-- ==== Proof.HostBridge.lean ====
/-
  Two families of small facts that let the kernel's host operations be compared with the reference's as written.
  The kernel and the reference were printed as two programs, so each carries its own copy of an operation's dimension
  numbers (for the degree scatter-add, the row gather and scatter-add, the pooling scatter-adds): the copies are the same
  record.  And the operations of a called function (the `where` that replaces a zero degree by one) read and write
  their buffers through a transport along "the buffer's type is the value's type", which is the identity.
  Each fact is stated over variables, so that the comparison never looks inside a gather or a scatter-add.
-/
import proofs.«115869_j75265006895359_1_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.StableHlo.Run
import proofs.«115869_j75265006895359_1_alg».proof.Proof.RefRead

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

open Idealize.ShloMosaic.StableHlo

/-- The kernel's and the reference's dimension numbers of this operation are the same record. -/
theorem degScatter_eq (a : FVec Ideal S100000 .f32) (i : IVec S1600000x1 32) (u : FVec Ideal S1600000 .f32) :
    Host.scatterAdd (F := Ideal) scatter_S100000_S1600000x1_S1600000_n_0_0_1 a i u = Host.scatterAdd (F := Ideal) Cert.ReferenceIdeal.scatter_S100000_S1600000x1_S1600000_n_0_0_1 a i u :=
  congrArg (fun d => Host.scatterAdd (F := Ideal) d a i u) (rfl : scatter_S100000_S1600000x1_S1600000_n_0_0_1 = Cert.ReferenceIdeal.scatter_S100000_S1600000x1_S1600000_n_0_0_1)

/-- The kernel's and the reference's dimension numbers of this operation are the same record. -/
theorem rowScatter_eq (a : FVec Ideal S100000x128 .f32) (i : IVec S1600000x1 32) (u : FVec Ideal S1600000x128 .f32) :
    Host.scatterAdd (F := Ideal) scatter_S100000x128_S1600000x1_S1600000x128_1_0_0_1 a i u = Host.scatterAdd (F := Ideal) Cert.ReferenceIdeal.scatter_S100000x128_S1600000x1_S1600000x128_1_0_0_1 a i u :=
  congrArg (fun d => Host.scatterAdd (F := Ideal) d a i u) (rfl : scatter_S100000x128_S1600000x1_S1600000x128_1_0_0_1 = Cert.ReferenceIdeal.scatter_S100000x128_S1600000x1_S1600000x128_1_0_0_1)

/-- The kernel's and the reference's dimension numbers of this operation are the same record. -/
theorem rowGather_eq (a : FVec Ideal S100000x128 .f32) (i : IVec S1600000x1 32) :
    Host.gather gather_S100000x128_S1600000x1_S1600000x128_1_0_n_n_0_1_1128 a i = Host.gather Cert.ReferenceIdeal.gather_S100000x128_S1600000x1_S1600000x128_1_0_n_n_0_1_1128 a i :=
  congrArg (fun d => Host.gather d a i) (rfl : gather_S100000x128_S1600000x1_S1600000x128_1_0_n_n_0_1_1128 = Cert.ReferenceIdeal.gather_S100000x128_S1600000x1_S1600000x128_1_0_n_n_0_1_1128)

/-- The kernel's and the reference's dimension numbers of this operation are the same record. -/
theorem poolScatter_eq (a : FVec Ideal S64x128 .f32) (i : IVec S100000x1 32) (u : FVec Ideal S100000x128 .f32) :
    Host.scatterAdd (F := Ideal) scatter_S64x128_S100000x1_S100000x128_1_0_0_1 a i u = Host.scatterAdd (F := Ideal) Cert.ReferenceIdeal.scatter_S64x128_S100000x1_S100000x128_1_0_0_1 a i u :=
  congrArg (fun d => Host.scatterAdd (F := Ideal) d a i u) (rfl : scatter_S64x128_S100000x1_S100000x128_1_0_0_1 = Cert.ReferenceIdeal.scatter_S64x128_S100000x1_S100000x128_1_0_0_1)

/-- The kernel's and the reference's dimension numbers of this operation are the same record. -/
theorem countScatter_eq (a : FVec Ideal S64 .f32) (i : IVec S100000x1 32) (u : FVec Ideal S100000 .f32) :
    Host.scatterAdd (F := Ideal) scatter_S64_S100000x1_S100000_n_0_0_1 a i u = Host.scatterAdd (F := Ideal) Cert.ReferenceIdeal.scatter_S64_S100000x1_S100000_n_0_0_1 a i u :=
  congrArg (fun d => Host.scatterAdd (F := Ideal) d a i u) (rfl : scatter_S64_S100000x1_S100000_n_0_0_1 = Cert.ReferenceIdeal.scatter_S64_S100000x1_S100000_n_0_0_1)

theorem toBuf_main_cst_3 (h1 : main_cst_3.ty = (⟨S_, .f32⟩ : BufTy)) (h2 : main_cst_3.space ≠ .host) (h3 : main_cst_3.isScoped = false)
    (v : (⟨S_, .f32⟩ : BufTy).Contents (Elt Ideal)) :
    (TRef.of (sig := sig) (T := ⟨S_, .f32⟩) main_cst_3 h1 h2 h3).toBuf v = v := rfl
theorem ofBuf_main_cst_3 (h1 : main_cst_3.ty = (⟨S_, .f32⟩ : BufTy)) (h2 : main_cst_3.space ≠ .host) (h3 : main_cst_3.isScoped = false)
    (v : main_cst_3.ty.Contents (Elt Ideal)) :
    (TRef.of (sig := sig) (T := ⟨S_, .f32⟩) main_cst_3 h1 h2 h3).ofBuf v = v := rfl
theorem toBuf_main_call0_v0 (h1 : main_call0_v0.ty = (⟨S_, .f32⟩ : BufTy)) (h2 : main_call0_v0.space ≠ .host) (h3 : main_call0_v0.isScoped = false)
    (v : (⟨S_, .f32⟩ : BufTy).Contents (Elt Ideal)) :
    (TRef.of (sig := sig) (T := ⟨S_, .f32⟩) main_call0_v0 h1 h2 h3).toBuf v = v := rfl
theorem ofBuf_main_call0_v0 (h1 : main_call0_v0.ty = (⟨S_, .f32⟩ : BufTy)) (h2 : main_call0_v0.space ≠ .host) (h3 : main_call0_v0.isScoped = false)
    (v : main_call0_v0.ty.Contents (Elt Ideal)) :
    (TRef.of (sig := sig) (T := ⟨S_, .f32⟩) main_call0_v0 h1 h2 h3).ofBuf v = v := rfl
theorem toBuf_main_call0_v1 (h1 : main_call0_v1.ty = (⟨S100000, .f32⟩ : BufTy)) (h2 : main_call0_v1.space ≠ .host) (h3 : main_call0_v1.isScoped = false)
    (v : (⟨S100000, .f32⟩ : BufTy).Contents (Elt Ideal)) :
    (TRef.of (sig := sig) (T := ⟨S100000, .f32⟩) main_call0_v1 h1 h2 h3).toBuf v = v := rfl
theorem ofBuf_main_call0_v1 (h1 : main_call0_v1.ty = (⟨S100000, .f32⟩ : BufTy)) (h2 : main_call0_v1.space ≠ .host) (h3 : main_call0_v1.isScoped = false)
    (v : main_call0_v1.ty.Contents (Elt Ideal)) :
    (TRef.of (sig := sig) (T := ⟨S100000, .f32⟩) main_call0_v1 h1 h2 h3).ofBuf v = v := rfl
theorem toBuf_main_v8 (h1 : main_v8.ty = (⟨S100000, .i1⟩ : BufTy)) (h2 : main_v8.space ≠ .host) (h3 : main_v8.isScoped = false)
    (v : (⟨S100000, .i1⟩ : BufTy).Contents (Elt Ideal)) :
    (TRef.of (sig := sig) (T := ⟨S100000, .i1⟩) main_v8 h1 h2 h3).toBuf v = v := rfl
theorem ofBuf_main_v8 (h1 : main_v8.ty = (⟨S100000, .i1⟩ : BufTy)) (h2 : main_v8.space ≠ .host) (h3 : main_v8.isScoped = false)
    (v : main_v8.ty.Contents (Elt Ideal)) :
    (TRef.of (sig := sig) (T := ⟨S100000, .i1⟩) main_v8 h1 h2 h3).ofBuf v = v := rfl
theorem toBuf_main_v3 (h1 : main_v3.ty = (⟨S100000, .f32⟩ : BufTy)) (h2 : main_v3.space ≠ .host) (h3 : main_v3.isScoped = false)
    (v : (⟨S100000, .f32⟩ : BufTy).Contents (Elt Ideal)) :
    (TRef.of (sig := sig) (T := ⟨S100000, .f32⟩) main_v3 h1 h2 h3).toBuf v = v := rfl
theorem ofBuf_main_v3 (h1 : main_v3.ty = (⟨S100000, .f32⟩ : BufTy)) (h2 : main_v3.space ≠ .host) (h3 : main_v3.isScoped = false)
    (v : main_v3.ty.Contents (Elt Ideal)) :
    (TRef.of (sig := sig) (T := ⟨S100000, .f32⟩) main_v3 h1 h2 h3).ofBuf v = v := rfl
theorem toBuf_main_v9 (h1 : main_v9.ty = (⟨S100000, .f32⟩ : BufTy)) (h2 : main_v9.space ≠ .host) (h3 : main_v9.isScoped = false)
    (v : (⟨S100000, .f32⟩ : BufTy).Contents (Elt Ideal)) :
    (TRef.of (sig := sig) (T := ⟨S100000, .f32⟩) main_v9 h1 h2 h3).toBuf v = v := rfl
theorem ofBuf_main_v9 (h1 : main_v9.ty = (⟨S100000, .f32⟩ : BufTy)) (h2 : main_v9.space ≠ .host) (h3 : main_v9.isScoped = false)
    (v : main_v9.ty.Contents (Elt Ideal)) :
    (TRef.of (sig := sig) (T := ⟨S100000, .f32⟩) main_v9 h1 h2 h3).ofBuf v = v := rfl
theorem toBuf_main_cst_6 (h1 : main_cst_6.ty = (⟨S_, .f32⟩ : BufTy)) (h2 : main_cst_6.space ≠ .host) (h3 : main_cst_6.isScoped = false)
    (v : (⟨S_, .f32⟩ : BufTy).Contents (Elt Ideal)) :
    (TRef.of (sig := sig) (T := ⟨S_, .f32⟩) main_cst_6 h1 h2 h3).toBuf v = v := rfl
theorem ofBuf_main_cst_6 (h1 : main_cst_6.ty = (⟨S_, .f32⟩ : BufTy)) (h2 : main_cst_6.space ≠ .host) (h3 : main_cst_6.isScoped = false)
    (v : main_cst_6.ty.Contents (Elt Ideal)) :
    (TRef.of (sig := sig) (T := ⟨S_, .f32⟩) main_cst_6 h1 h2 h3).ofBuf v = v := rfl
theorem toBuf_main_call1_v0 (h1 : main_call1_v0.ty = (⟨S_, .f32⟩ : BufTy)) (h2 : main_call1_v0.space ≠ .host) (h3 : main_call1_v0.isScoped = false)
    (v : (⟨S_, .f32⟩ : BufTy).Contents (Elt Ideal)) :
    (TRef.of (sig := sig) (T := ⟨S_, .f32⟩) main_call1_v0 h1 h2 h3).toBuf v = v := rfl
theorem ofBuf_main_call1_v0 (h1 : main_call1_v0.ty = (⟨S_, .f32⟩ : BufTy)) (h2 : main_call1_v0.space ≠ .host) (h3 : main_call1_v0.isScoped = false)
    (v : main_call1_v0.ty.Contents (Elt Ideal)) :
    (TRef.of (sig := sig) (T := ⟨S_, .f32⟩) main_call1_v0 h1 h2 h3).ofBuf v = v := rfl
theorem toBuf_main_call1_v1 (h1 : main_call1_v1.ty = (⟨S100000, .f32⟩ : BufTy)) (h2 : main_call1_v1.space ≠ .host) (h3 : main_call1_v1.isScoped = false)
    (v : (⟨S100000, .f32⟩ : BufTy).Contents (Elt Ideal)) :
    (TRef.of (sig := sig) (T := ⟨S100000, .f32⟩) main_call1_v1 h1 h2 h3).toBuf v = v := rfl
theorem ofBuf_main_call1_v1 (h1 : main_call1_v1.ty = (⟨S100000, .f32⟩ : BufTy)) (h2 : main_call1_v1.space ≠ .host) (h3 : main_call1_v1.isScoped = false)
    (v : main_call1_v1.ty.Contents (Elt Ideal)) :
    (TRef.of (sig := sig) (T := ⟨S100000, .f32⟩) main_call1_v1 h1 h2 h3).ofBuf v = v := rfl
theorem toBuf_main_v13 (h1 : main_v13.ty = (⟨S100000, .i1⟩ : BufTy)) (h2 : main_v13.space ≠ .host) (h3 : main_v13.isScoped = false)
    (v : (⟨S100000, .i1⟩ : BufTy).Contents (Elt Ideal)) :
    (TRef.of (sig := sig) (T := ⟨S100000, .i1⟩) main_v13 h1 h2 h3).toBuf v = v := rfl
theorem ofBuf_main_v13 (h1 : main_v13.ty = (⟨S100000, .i1⟩ : BufTy)) (h2 : main_v13.space ≠ .host) (h3 : main_v13.isScoped = false)
    (v : main_v13.ty.Contents (Elt Ideal)) :
    (TRef.of (sig := sig) (T := ⟨S100000, .i1⟩) main_v13 h1 h2 h3).ofBuf v = v := rfl
theorem toBuf_main_v6 (h1 : main_v6.ty = (⟨S100000, .f32⟩ : BufTy)) (h2 : main_v6.space ≠ .host) (h3 : main_v6.isScoped = false)
    (v : (⟨S100000, .f32⟩ : BufTy).Contents (Elt Ideal)) :
    (TRef.of (sig := sig) (T := ⟨S100000, .f32⟩) main_v6 h1 h2 h3).toBuf v = v := rfl
theorem ofBuf_main_v6 (h1 : main_v6.ty = (⟨S100000, .f32⟩ : BufTy)) (h2 : main_v6.space ≠ .host) (h3 : main_v6.isScoped = false)
    (v : main_v6.ty.Contents (Elt Ideal)) :
    (TRef.of (sig := sig) (T := ⟨S100000, .f32⟩) main_v6 h1 h2 h3).ofBuf v = v := rfl
theorem toBuf_main_v14 (h1 : main_v14.ty = (⟨S100000, .f32⟩ : BufTy)) (h2 : main_v14.space ≠ .host) (h3 : main_v14.isScoped = false)
    (v : (⟨S100000, .f32⟩ : BufTy).Contents (Elt Ideal)) :
    (TRef.of (sig := sig) (T := ⟨S100000, .f32⟩) main_v14 h1 h2 h3).toBuf v = v := rfl
theorem ofBuf_main_v14 (h1 : main_v14.ty = (⟨S100000, .f32⟩ : BufTy)) (h2 : main_v14.space ≠ .host) (h3 : main_v14.isScoped = false)
    (v : main_v14.ty.Contents (Elt Ideal)) :
    (TRef.of (sig := sig) (T := ⟨S100000, .f32⟩) main_v14 h1 h2 h3).ofBuf v = v := rfl

end Cert.KernelIdeal.Hand

end
-- ==== Proof.HostStages.lean ====
/-
  The host operations around the three regions, as named functions of their operands, and the fact that each is the
  reference's stage of the same name's meaning.
    * `degOf e`: for every node, the number of edges whose end in the list `e` is that node (a scatter-add of ones);
      `posDeg e`: the same with a zero replaced by one; `degNorm e`: that to the power -1/2.
    * `edgeSum y s t`: for every node, the sum over the edges pointing at it (list `t`) of the row of `y` at the edge's
      other end (list `s`, a negative index wrapped once by the number of nodes): a row gather then a scatter-add.
    * `graphMean h g`: the rows of `h` added per graph index, divided by the graph's node count, at least one.
  The kernel's host operations are these functions by their very text; the reference's stages are the same text
  with its own copy of each operation's dimension numbers, which is the same record.
-/
import proofs.«115869_j75265006895359_1_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.StableHlo.Run
import proofs.«115869_j75265006895359_1_alg».proof.Proof.HostBridge
import proofs.«115869_j75265006895359_1_alg».proof.Proof.RefRead

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

open Idealize.ShloMosaic.StableHlo

/-- The number of listed edge ends at every node. -/
def degOf (e : IVec S1600000 32) : FVec Ideal S100000 .f32 :=
  Host.scatterAdd (F := Ideal) scatter_S100000_S1600000x1_S1600000_n_0_0_1 (broadcastInDim S100000 ![] bcast_S_S100000 (constant (F := Ideal) S_ .f32 0x00000000#32))
    (broadcastInDim S1600000x1 ![0] bcast_S1600000_S1600000x1_0 e) (broadcastInDim S1600000 ![] bcast_S_S1600000 (constant (F := Ideal) S_ .f32 0x3F800000#32))

/-- The same, a zero degree read as one. -/
def posDeg (e : IVec S1600000 32) : FVec Ideal S100000 .f32 :=
  select (cmpf (F := Ideal) .ogt (degOf e) (broadcastInDim S100000 ![] bcast_S_S100000 (constant (F := Ideal) S_ .f32 0x00000000#32))) (degOf e)
    (broadcastInDim S100000 ![] bcast_S_S100000 (id (constant (F := Ideal) S_ .f32 0x3F800000#32)))

/-- The degree normalisation: that to the power -1/2. -/
def degNorm (e : IVec S1600000 32) : FVec Ideal S100000 .f32 :=
  Host.powf (F := Ideal) (posDeg e) (broadcastInDim S100000 ![] bcast_S_S100000 (constant (F := Ideal) S_ .f32 0xBF000000#32))

/-- Every node's sum of the rows of `y` at the other ends of the edges pointing at it. -/
def edgeSum (y : FVec Ideal S100000x128 .f32) (s t : IVec S1600000 32) : FVec Ideal S100000x128 .f32 :=
  Host.scatterAdd (F := Ideal) scatter_S100000x128_S1600000x1_S1600000x128_1_0_0_1 (broadcastInDim S100000x128 ![] bcast_S_S100000x128 (constant (F := Ideal) S_ .f32 0x00000000#32))
    (broadcastInDim S1600000x1 ![0] bcast_S1600000_S1600000x1_0 t)
    (Host.gather gather_S100000x128_S1600000x1_S1600000x128_1_0_n_n_0_1_1128 y (broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 100000#32))) s)))

/-- The mean of the rows of `h` over each graph's nodes. -/
def graphMean (h : FVec Ideal S100000x128 .f32) (g : IVec S100000 32) : FVec Ideal S64x128 .f32 :=
  Host.divf (F := Ideal)
    (Host.scatterAdd (F := Ideal) scatter_S64x128_S100000x1_S100000x128_1_0_0_1 (broadcastInDim S64x128 ![] bcast_S_S64x128 (constant (F := Ideal) S_ .f32 0x00000000#32))
      (broadcastInDim S100000x1 ![0] bcast_S100000_S100000x1_0 g) h)
    (broadcastInDim S64x128 ![0, 1] bcast_S64x1_S64x128_0_1 (broadcastInDim S64x1 ![0] bcast_S64_S64x1_0
      (maximumf (F := Ideal)
        (Host.scatterAdd (F := Ideal) scatter_S64_S100000x1_S100000_n_0_0_1 (broadcastInDim S64 ![] bcast_S_S64 (constant (F := Ideal) S_ .f32 0x00000000#32))
          (broadcastInDim S100000x1 ![0] bcast_S100000_S100000x1_0 g) (broadcastInDim S100000 ![] bcast_S_S100000 (constant (F := Ideal) S_ .f32 0x3F800000#32)))
        (broadcastInDim S64 ![] bcast_S_S64 (constant (F := Ideal) S_ .f32 0x3F800000#32)))))

set_option maxHeartbeats 400000 in
/-- The out-degree normalisation is the reference's. -/
theorem degNorm_src (e : IVec S1600000 32) : degNorm e = Cert.ReferenceIdeal.ReadP.val_main_v11 (F := Ideal) e := by
  unfold degNorm posDeg degOf
  simp only [degScatter_eq]
  simp only [Cert.ReferenceIdeal.ReadP.val_main_v11, Cert.ReferenceIdeal.ReadP.val_main_v10, Cert.ReferenceIdeal.ReadP.val_main_cst_4, Cert.ReferenceIdeal.ReadP.val_main_v9, Cert.ReferenceIdeal.ReadP.val_main_v8, Cert.ReferenceIdeal.ReadP.val_main_v7, Cert.ReferenceIdeal.ReadP.val_main_cst_2, Cert.ReferenceIdeal.ReadP.val_main_v3, Cert.ReferenceIdeal.ReadP.val_main_v2, Cert.ReferenceIdeal.ReadP.val_main_v1, Cert.ReferenceIdeal.ReadP.val_main_v0, Cert.ReferenceIdeal.ReadP.val_main_cst, Cert.ReferenceIdeal.ReadP.val_main_cst_0, Cert.ReferenceIdeal.ReadP.val_main_cst_3, Cert.ReferenceIdeal.ReadP.val_main_call0_v0, Cert.ReferenceIdeal.ReadP.val_main_call0_v1]

set_option maxHeartbeats 400000 in
/-- The in-degree normalisation is the reference's. -/
theorem degNorm_dst (e : IVec S1600000 32) : degNorm e = Cert.ReferenceIdeal.ReadP.val_main_v16 (F := Ideal) e := by
  unfold degNorm posDeg degOf
  simp only [degScatter_eq]
  simp only [Cert.ReferenceIdeal.ReadP.val_main_v16, Cert.ReferenceIdeal.ReadP.val_main_v15, Cert.ReferenceIdeal.ReadP.val_main_cst_7, Cert.ReferenceIdeal.ReadP.val_main_v14, Cert.ReferenceIdeal.ReadP.val_main_v13, Cert.ReferenceIdeal.ReadP.val_main_v12, Cert.ReferenceIdeal.ReadP.val_main_cst_5, Cert.ReferenceIdeal.ReadP.val_main_v6, Cert.ReferenceIdeal.ReadP.val_main_v5, Cert.ReferenceIdeal.ReadP.val_main_v4, Cert.ReferenceIdeal.ReadP.val_main_cst_1, Cert.ReferenceIdeal.ReadP.val_main_v0, Cert.ReferenceIdeal.ReadP.val_main_cst, Cert.ReferenceIdeal.ReadP.val_main_cst_6, Cert.ReferenceIdeal.ReadP.val_main_call1_v0, Cert.ReferenceIdeal.ReadP.val_main_call1_v1]

set_option maxHeartbeats 400000 in
/-- The first aggregation is the reference's. -/
theorem edgeSum_first (x0 : FVec Ideal S100000x128 .f32) (s t : IVec S1600000 32) :
    edgeSum (Cert.ReferenceIdeal.ReadP.val_main_v19 (F := Ideal) x0 s) s t = Cert.ReferenceIdeal.ReadP.val_main_v29 (F := Ideal) x0 s t := by
  unfold edgeSum
  simp only [rowScatter_eq, rowGather_eq]
  simp only [Cert.ReferenceIdeal.ReadP.val_main_v29, Cert.ReferenceIdeal.ReadP.val_main_v28, Cert.ReferenceIdeal.ReadP.val_main_v27, Cert.ReferenceIdeal.ReadP.val_main_cst_9, Cert.ReferenceIdeal.ReadP.val_main_v26, Cert.ReferenceIdeal.ReadP.val_main_v25, Cert.ReferenceIdeal.ReadP.val_main_v24, Cert.ReferenceIdeal.ReadP.val_main_v23, Cert.ReferenceIdeal.ReadP.val_main_v22, Cert.ReferenceIdeal.ReadP.val_main_c_8, Cert.ReferenceIdeal.ReadP.val_main_v21, Cert.ReferenceIdeal.ReadP.val_main_v20, Cert.ReferenceIdeal.ReadP.val_main_c]

set_option maxHeartbeats 400000 in
/-- The second aggregation is the reference's. -/
theorem edgeSum_second (x0 : FVec Ideal S100000x128 .f32) (x1 : FVec Ideal S128x128 .f32) (x2 : FVec Ideal S128 .f32) (s t : IVec S1600000 32) :
    edgeSum (Cert.ReferenceIdeal.ReadP.val_main_v40 (F := Ideal) x0 x1 x2 s t) s t = Cert.ReferenceIdeal.ReadP.val_main_v50 (F := Ideal) x0 x1 x2 s t := by
  unfold edgeSum
  simp only [rowScatter_eq, rowGather_eq]
  simp only [Cert.ReferenceIdeal.ReadP.val_main_v50, Cert.ReferenceIdeal.ReadP.val_main_v49, Cert.ReferenceIdeal.ReadP.val_main_v48, Cert.ReferenceIdeal.ReadP.val_main_cst_12, Cert.ReferenceIdeal.ReadP.val_main_v47, Cert.ReferenceIdeal.ReadP.val_main_v46, Cert.ReferenceIdeal.ReadP.val_main_v45, Cert.ReferenceIdeal.ReadP.val_main_v44, Cert.ReferenceIdeal.ReadP.val_main_v43, Cert.ReferenceIdeal.ReadP.val_main_c_11, Cert.ReferenceIdeal.ReadP.val_main_v42, Cert.ReferenceIdeal.ReadP.val_main_v41, Cert.ReferenceIdeal.ReadP.val_main_c_10]

set_option maxHeartbeats 400000 in
/-- The pooling is the reference's. -/
theorem graphMean_ref (x0 : FVec Ideal S100000x128 .f32) (x1 x3 : FVec Ideal S128x128 .f32) (x2 x4 : FVec Ideal S128 .f32) (s t : IVec S1600000 32)
    (g : IVec S100000 32) :
    graphMean (Cert.ReferenceIdeal.ReadP.val_main_v57 (F := Ideal) x0 x1 x2 x3 x4 s t) g = Cert.ReferenceIdeal.ReadP.val_main_v69 (F := Ideal) x0 x1 x2 x3 x4 s t g := by
  unfold graphMean
  simp only [poolScatter_eq, countScatter_eq]
  simp only [Cert.ReferenceIdeal.ReadP.val_main_v69, Cert.ReferenceIdeal.ReadP.val_main_v68, Cert.ReferenceIdeal.ReadP.val_main_v67, Cert.ReferenceIdeal.ReadP.val_main_v66, Cert.ReferenceIdeal.ReadP.val_main_v65, Cert.ReferenceIdeal.ReadP.val_main_cst_16, Cert.ReferenceIdeal.ReadP.val_main_v64, Cert.ReferenceIdeal.ReadP.val_main_v63, Cert.ReferenceIdeal.ReadP.val_main_v62, Cert.ReferenceIdeal.ReadP.val_main_cst_15, Cert.ReferenceIdeal.ReadP.val_main_v61, Cert.ReferenceIdeal.ReadP.val_main_cst_14, Cert.ReferenceIdeal.ReadP.val_main_v60, Cert.ReferenceIdeal.ReadP.val_main_v59, Cert.ReferenceIdeal.ReadP.val_main_v58, Cert.ReferenceIdeal.ReadP.val_main_cst_13]

end Cert.KernelIdeal.Hand

end
-- ==== Proof.HostStretch.lean ====
/-
  What each stretch of host operations writes, for an arbitrary valuation `V` of the buffers it starts from.
  Stated over `V` so that each fact sees one stretch only: its operands are `V` at the buffers the stretch reads.
  The two calls of `where` (a zero degree replaced by one) are here too; their operations move values between a
  buffer and a typed value through a transport that is the identity.
-/
import proofs.«115869_j75265006895359_1_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.StableHlo.Run
import proofs.«115869_j75265006895359_1_alg».proof.Proof.HostStages
import proofs.«115869_j75265006895359_1_alg».proof.Proof.Bridge

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

open Idealize.ShloMosaic.StableHlo

variable (V : Valuation τ sig (Elt Ideal))

/-! The first stretch: the two degrees, and the out-degree compared with zero. -/

set_option maxHeartbeats 400000 in
theorem first_v3 : StableHlo.after hostOps0 V (Proc.devRef .tc main_v3) = degOf (V (Proc.devRef .tc main_arg5) : IVec S1600000 32) := by
  after_results_simp <;> rfl

set_option maxHeartbeats 400000 in
theorem first_v6 : StableHlo.after hostOps0 V (Proc.devRef .tc main_v6) = degOf (V (Proc.devRef .tc main_arg6) : IVec S1600000 32) := by
  after_results_simp <;> rfl

set_option maxHeartbeats 400000 in
theorem first_v8 : StableHlo.after hostOps0 V (Proc.devRef .tc main_v8) = cmpf (F := Ideal) .ogt (degOf (V (Proc.devRef .tc main_arg5) : IVec S1600000 32)) (broadcastInDim S100000 ![] bcast_S_S100000 (constant (F := Ideal) S_ .f32 0x00000000#32)) := by
  after_results_simp <;> rfl

set_option maxHeartbeats 400000 in
theorem first_cst_3 : StableHlo.after hostOps0 V (Proc.devRef .tc main_cst_3) = constant (F := Ideal) S_ .f32 0x3F800000#32 := by
  after_results_simp <;> rfl

/-! The first `where`. -/

set_option maxHeartbeats 400000 in
theorem where0 : StableHlo.after hostOps0_1 V (Proc.devRef .tc main_v9) = select (V (Proc.devRef .tc main_v8) : IVec S100000 1) (V (Proc.devRef .tc main_v3) : FVec Ideal S100000 .f32) (broadcastInDim S100000 ![] bcast_S_S100000 (id (V (Proc.devRef .tc main_cst_3) : FVec Ideal S_ .f32))) := by
  after_results_simp <;> rfl

set_option maxHeartbeats 400000 in
theorem where0_v6 : StableHlo.after hostOps0_1 V (Proc.devRef .tc main_v6) = V (Proc.devRef .tc main_v6) := by
  after_results_simp <;> rfl

/-! Between the two: the out-degree normalisation, the in-degree compared with zero. -/

set_option maxHeartbeats 400000 in
theorem mid_v11 : StableHlo.after hostOps0_2 V (Proc.devRef .tc main_v11) = Host.powf (F := Ideal) (V (Proc.devRef .tc main_v9) : FVec Ideal S100000 .f32) (broadcastInDim S100000 ![] bcast_S_S100000 (constant (F := Ideal) S_ .f32 0xBF000000#32)) := by
  after_results_simp <;> rfl

set_option maxHeartbeats 400000 in
theorem mid_v13 : StableHlo.after hostOps0_2 V (Proc.devRef .tc main_v13) = cmpf (F := Ideal) .ogt (V (Proc.devRef .tc main_v6) : FVec Ideal S100000 .f32) (broadcastInDim S100000 ![] bcast_S_S100000 (constant (F := Ideal) S_ .f32 0x00000000#32)) := by
  after_results_simp <;> rfl

set_option maxHeartbeats 400000 in
theorem mid_cst_6 : StableHlo.after hostOps0_2 V (Proc.devRef .tc main_cst_6) = constant (F := Ideal) S_ .f32 0x3F800000#32 := by
  after_results_simp <;> rfl

set_option maxHeartbeats 400000 in
theorem mid_v6 : StableHlo.after hostOps0_2 V (Proc.devRef .tc main_v6) = V (Proc.devRef .tc main_v6) := by
  after_results_simp <;> rfl

/-! The second `where`. -/

set_option maxHeartbeats 400000 in
theorem where1 : StableHlo.after hostOps0_3 V (Proc.devRef .tc main_v14) = select (V (Proc.devRef .tc main_v13) : IVec S100000 1) (V (Proc.devRef .tc main_v6) : FVec Ideal S100000 .f32) (broadcastInDim S100000 ![] bcast_S_S100000 (id (V (Proc.devRef .tc main_cst_6) : FVec Ideal S_ .f32))) := by
  after_results_simp <;> rfl

set_option maxHeartbeats 400000 in
theorem where1_v11 : StableHlo.after hostOps0_3 V (Proc.devRef .tc main_v11) = V (Proc.devRef .tc main_v11) := by
  after_results_simp <;> rfl

/-! The last stretch before the first region: the in-degree normalisation, and the reshapes to columns. -/

set_option maxHeartbeats 400000 in
theorem last_v17 : StableHlo.after hostOps0_4 V (Proc.devRef .tc main_v17) = colOf (V (Proc.devRef .tc main_v11) : FVec Ideal S100000 .f32) := by
  after_results_simp <;> rfl

set_option maxHeartbeats 400000 in
theorem last_v18 : StableHlo.after hostOps0_4 V (Proc.devRef .tc main_v18) = colOf (Host.powf (F := Ideal) (V (Proc.devRef .tc main_v14) : FVec Ideal S100000 .f32) (broadcastInDim S100000 ![] bcast_S_S100000 (constant (F := Ideal) S_ .f32 0xBF000000#32))) := by
  after_results_simp <;> rfl

/-! Between the regions, and after the last. -/

set_option maxHeartbeats 400000 in
theorem between1 : StableHlo.after hostOps1 V (Proc.devRef .tc main_v31) = edgeSum (V (Proc.devRef .tc main_v21) : FVec Ideal S100000x128 .f32) (V (Proc.devRef .tc main_arg5) : IVec S1600000 32) (V (Proc.devRef .tc main_arg6) : IVec S1600000 32) := by
  after_results_simp <;> rfl

set_option maxHeartbeats 400000 in
theorem between2 : StableHlo.after hostOps2 V (Proc.devRef .tc main_v42) = edgeSum (V (Proc.devRef .tc main_v32) : FVec Ideal S100000x128 .f32) (V (Proc.devRef .tc main_arg5) : IVec S1600000 32) (V (Proc.devRef .tc main_arg6) : IVec S1600000 32) := by
  after_results_simp <;> rfl

set_option maxHeartbeats 400000 in
theorem pooling : StableHlo.after hostOps3 V (Proc.devRef .tc main_v55) = graphMean (V (Proc.devRef .tc main_v43) : FVec Ideal S100000x128 .f32) (V (Proc.devRef .tc main_arg7) : IVec S100000 32) := by
  after_results_simp <;> rfl

end Cert.KernelIdeal.Hand

end
-- ==== Proof.PlainLayer.lean ====
/-
  The third tiled region (the second dense layer's tail): as the second, without the maximum and without the second
  column (the region still has that column as a window; its body does not load it).  After the region the output array is
  `affineRows` of the four arrays its body reads.
-/
import proofs.«115869_j75265006895359_1_alg».proof.Proof.Gen.KernelIdeal.Frame
import Idealize.ShloMosaic.Lib.Pipeline.Value
import Idealize.ShloMosaic.Lib.ValueIdx
import Idealize.ShloMosaic.PureOps.Ideal.Laws
import proofs.«115869_j75265006895359_1_alg».proof.Proof.BlockOps
import proofs.«115869_j75265006895359_1_alg».proof.Proof.DenseLayer

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-- The six windows' index maps over the grid: the row-blocked windows are at block row t, the matrix and the bias row
    at block (0, 0). -/
theorem plain_idx : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

section
variable (V : (c : Dev nD) → (b : Ref sig .tc) → Buf (Elt Ideal) ((c : Thread nD τ).loc b))

/-- What point t writes back is block t of the whole-array function of the arrays the region found. -/
theorem plain_flushed (c : Dev nD) (t : Fin cfg2.N) :
    (dat2 V c).flushed 5 t = ((cfg2.win 5).blk t).view.read (Elt Ideal) (affineRows (V c main_v42) (V c main_v18) (V c main_arg3) (V c main_v20)) := by
  show (cfg2.win 5).cut (grid2.coords t) ((dat2 V c).after 5 t) = _
  rw [after2_5]
  unfold out2_5
  rw [View.canon_unit_zero zero_off]
  simp only [View.ld_unit_zero (S := S5000x128) zero_off, View.ld_unit_zero (S := S5000x1) zero_off,
    View.ld_unit_zero (S := S128x128) zero_off, View.ld_unit_zero (S := S1x128) zero_off]
  obtain ⟨e00, e01, e10, e11, e20, e21, e30, e31, e40, e41, e50, e51⟩ := plain_idx t
  have ht : t.val < 20 := Nat.lt_of_lt_of_eq t.isLt (show cfg2.N = 20 from N_2)
  funext j
  obtain ⟨p, q, rfl⟩ : ∃ (p : Fin 5000) (q : Fin 128), j = ix2 p q := ⟨j 0, j 1, eq_ix2 j⟩
  have hE : ((cfg2.win 5).blk t).view.emb (ix2 p q) = ix2 (rowAt ⟨t.val, ht⟩ p) q := by
    funext a; apply Fin.ext
    match a with
    | ⟨0, _⟩ => show win2_5.index t (0 : Fin 2) * 5000 + 1 * p.val = t.val * 5000 + p.val; omega
    | ⟨1, _⟩ => show win2_5.index t (1 : Fin 2) * 128 + 1 * q.val = q.val; omega
  show k2_pay1 (iblk2 V c 0 t) (iblk2 V c 1 t) (iblk2 V c 3 t) (iblk2 V c 4 t) (ix2 p q)
    = (affineRows (V c main_v42) (V c main_v18) (V c main_arg3) (V c main_v20)) (((cfg2.win 5).blk t).view.emb (ix2 p q))
  rw [hE]
  refine (plain_pay (iblk2 V c 0 t) (iblk2 V c 1 t) (iblk2 V c 3 t) (iblk2 V c 4 t) p q).trans ?_
  have hA : ∀ k : Fin 128, (iblk2 V c 0 t : Vec Ideal S5000x128 .f32) (ix2 p k) = (V c main_v42 : S100000x128.Idx → EReal) (ix2 (rowAt ⟨t.val, ht⟩ p) k) := fun k => by
    show (V c main_v42 : S100000x128.Idx → EReal) (((cfg2.win 0).blk t).view.emb (ix2 p k)) = _
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  have hD : (iblk2 V c 1 t : Vec Ideal S5000x1 .f32) (ix2 p (0 : Fin 1)) = (V c main_v18 : S100000x1.Idx → EReal) (ix2 (rowAt ⟨t.val, ht⟩ p) (0 : Fin 1)) := by
    show (V c main_v18 : S100000x1.Idx → EReal) (((cfg2.win 1).blk t).view.emb (ix2 p (0 : Fin 1))) = _
    refine congrArg _ (funext fun a => Fin.ext ?_)
    match a with
    | ⟨0, _⟩ => show win2_1.index t (0 : Fin 2) * 5000 + 1 * p.val = t.val * 5000 + p.val; omega
    | ⟨1, _⟩ => show win2_1.index t (1 : Fin 2) * 1 + 1 * 0 = 0; omega
  have hW : ∀ k : Fin 128, (iblk2 V c 3 t : Vec Ideal S128x128 .f32) (ix2 k q) = (V c main_arg3 : S128x128.Idx → EReal) (ix2 k q) := fun k => by
    show (V c main_arg3 : S128x128.Idx → EReal) (((cfg2.win 3).blk t).view.emb (ix2 k q)) = _
    refine congrArg _ (funext fun a => Fin.ext ?_)
    match a with
    | ⟨0, _⟩ => show win2_3.index t (0 : Fin 2) * 128 + 1 * k.val = k.val; omega
    | ⟨1, _⟩ => show win2_3.index t (1 : Fin 2) * 128 + 1 * q.val = q.val; omega
  have hB : (iblk2 V c 4 t : Vec Ideal S1x128 .f32) (ix2 (0 : Fin 1) q) = (V c main_v20 : S1x128.Idx → EReal) (ix2 (0 : Fin 1) q) := by
    show (V c main_v20 : S1x128.Idx → EReal) (((cfg2.win 4).blk t).view.emb (ix2 (0 : Fin 1) q)) = _
    refine congrArg _ (funext fun a => Fin.ext ?_)
    match a with
    | ⟨0, _⟩ => show win2_4.index t (0 : Fin 2) * 1 + 1 * 0 = 0; omega
    | ⟨1, _⟩ => show win2_4.index t (1 : Fin 2) * 128 + 1 * q.val = q.val; omega
  exact congrArg₂ (· + ·) (Finset.sum_congr rfl fun k _ => congrArg₂ (· * ·) (congrArg₂ (· * ·) (hA k) hD) (hW k)) hB

/-- An index of the array is in point t's block iff each coordinate is in the block's range on its axis. -/
theorem plain_mem (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v43).slice (win2_5.rect t)).set ↔ _
  rw [View.set_slice_whole, Rect.mem_set_unit]
  exact Iff.rfl

/-- Every index of the array lies in the block of the point that owns its row. -/
theorem plain_cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hlt : (i 0).val / 5000 < cfg2.N := by rw [show cfg2.N = 20 from N_2]; omega
  obtain ⟨e00, e01, e10, e11, e20, e21, e30, e31, e40, e41, e50, e51⟩ := plain_idx ⟨(i 0).val / 5000, hlt⟩
  refine ⟨⟨(i 0).val / 5000, hlt⟩, flush2_5 _, ?_⟩
  rw [plain_mem]
  intro a
  match a with
  | ⟨0, _⟩ =>
    show win2_5.index ⟨(i 0).val / 5000, hlt⟩ (0 : Fin 2) * 5000 ≤ (i 0).val
      ∧ (i 0).val < win2_5.index ⟨(i 0).val / 5000, hlt⟩ (0 : Fin 2) * 5000 + 5000
    rw [e50]; show (i 0).val / 5000 * 5000 ≤ (i 0).val ∧ (i 0).val < (i 0).val / 5000 * 5000 + 5000; omega
  | ⟨1, _⟩ =>
    show win2_5.index ⟨(i 0).val / 5000, hlt⟩ (1 : Fin 2) * 128 ≤ (i 1).val
      ∧ (i 1).val < win2_5.index ⟨(i 0).val / 5000, hlt⟩ (1 : Fin 2) * 128 + 128
    rw [e51]; omega

/-- After the region its output array is the whole-array function of the arrays it found. -/
theorem plain_array (c : Dev nD) :
    (dat2 V c).arrAt 5 cfg2.N = affineRows (V c main_v42) (V c main_v18) (V c main_arg3) (V c main_v20) :=
  (dat2 V c).arrAt_eq_of_cover 5 (affineRows (V c main_v42) (V c main_v18) (V c main_arg3) (V c main_v20)) (fun t _ => plain_flushed V c t) (plain_cover)

end

end Cert.KernelIdeal.Hand

end
-- ==== Proof.ReluLayer.lean ====
/-
  The second tiled region (the first dense layer's tail).  At grid point t it takes rows 5000·t … 5000·t + 4999 of the
  aggregated features and of two [100000, 1] columns, the whole [128, 128] weight matrix and the whole [1, 128] bias row
  (block (0, 0) at every point), and writes back the same rows of `reluScaled`.  The 20 blocks tile the array, so after
  the region the output array is `reluScaled` of the five arrays the region found.
-/
import proofs.«115869_j75265006895359_1_alg».proof.Proof.Gen.KernelIdeal.Frame
import Idealize.ShloMosaic.Lib.Pipeline.Value
import Idealize.ShloMosaic.Lib.ValueIdx
import Idealize.ShloMosaic.PureOps.Ideal.Laws
import proofs.«115869_j75265006895359_1_alg».proof.Proof.BlockOps
import proofs.«115869_j75265006895359_1_alg».proof.Proof.DenseLayer

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-- The six windows' index maps over the grid: the row-blocked windows are at block row t, the matrix and the bias row
    at block (0, 0). -/
theorem relu_idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

section
variable (V : (c : Dev nD) → (b : Ref sig .tc) → Buf (Elt Ideal) ((c : Thread nD τ).loc b))

/-- What point t writes back is block t of the whole-array function of the arrays the region found. -/
theorem relu_flushed (c : Dev nD) (t : Fin cfg1.N) :
    (dat1 V c).flushed 5 t = ((cfg1.win 5).blk t).view.read (Elt Ideal) (reluScaled (V c main_v31) (V c main_v18) (V c main_v17) (V c main_arg1) (V c main_v19)) := by
  show (cfg1.win 5).cut (grid1.coords t) ((dat1 V c).after 5 t) = _
  rw [after1_5]
  unfold out1_5
  rw [View.canon_unit_zero zero_off]
  simp only [View.ld_unit_zero (S := S5000x128) zero_off, View.ld_unit_zero (S := S5000x1) zero_off,
    View.ld_unit_zero (S := S128x128) zero_off, View.ld_unit_zero (S := S1x128) zero_off]
  obtain ⟨e00, e01, e10, e11, e20, e21, e30, e31, e40, e41, e50, e51⟩ := relu_idx t
  have ht : t.val < 20 := Nat.lt_of_lt_of_eq t.isLt (show cfg1.N = 20 from N_1)
  funext j
  obtain ⟨p, q, rfl⟩ : ∃ (p : Fin 5000) (q : Fin 128), j = ix2 p q := ⟨j 0, j 1, eq_ix2 j⟩
  have hE : ((cfg1.win 5).blk t).view.emb (ix2 p q) = ix2 (rowAt ⟨t.val, ht⟩ p) q := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  show k1_pay1 (iblk1 V c 0 t) (iblk1 V c 1 t) (iblk1 V c 3 t) (iblk1 V c 4 t) (iblk1 V c 2 t) (ix2 p q)
    = (reluScaled (V c main_v31) (V c main_v18) (V c main_v17) (V c main_arg1) (V c main_v19)) (((cfg1.win 5).blk t).view.emb (ix2 p q))
  rw [hE]
  refine (relu_pay (iblk1 V c 0 t) (iblk1 V c 1 t) (iblk1 V c 3 t) (iblk1 V c 4 t) (iblk1 V c 2 t) p q).trans ?_
  have hA : ∀ k : Fin 128, (iblk1 V c 0 t : Vec Ideal S5000x128 .f32) (ix2 p k) = (V c main_v31 : S100000x128.Idx → EReal) (ix2 (rowAt ⟨t.val, ht⟩ p) k) := fun k => by
    show (V c main_v31 : S100000x128.Idx → EReal) (((cfg1.win 0).blk t).view.emb (ix2 p k)) = _
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  have hD : (iblk1 V c 1 t : Vec Ideal S5000x1 .f32) (ix2 p (0 : Fin 1)) = (V c main_v18 : S100000x1.Idx → EReal) (ix2 (rowAt ⟨t.val, ht⟩ p) (0 : Fin 1)) := by
    show (V c main_v18 : S100000x1.Idx → EReal) (((cfg1.win 1).blk t).view.emb (ix2 p (0 : Fin 1))) = _
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 1 + 1 * 0 = 0; omega
  have hS : (iblk1 V c 2 t : Vec Ideal S5000x1 .f32) (ix2 p (0 : Fin 1)) = (V c main_v17 : S100000x1.Idx → EReal) (ix2 (rowAt ⟨t.val, ht⟩ p) (0 : Fin 1)) := by
    show (V c main_v17 : S100000x1.Idx → EReal) (((cfg1.win 2).blk t).view.emb (ix2 p (0 : Fin 1))) = _
    refine congrArg _ (funext fun a => Fin.ext ?_)
    match a with
    | ⟨0, _⟩ => show win1_2.index t (0 : Fin 2) * 5000 + 1 * p.val = t.val * 5000 + p.val; omega
    | ⟨1, _⟩ => show win1_2.index t (1 : Fin 2) * 1 + 1 * 0 = 0; omega
  have hW : ∀ k : Fin 128, (iblk1 V c 3 t : Vec Ideal S128x128 .f32) (ix2 k q) = (V c main_arg1 : S128x128.Idx → EReal) (ix2 k q) := fun k => by
    show (V c main_arg1 : S128x128.Idx → EReal) (((cfg1.win 3).blk t).view.emb (ix2 k q)) = _
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * q.val = q.val; omega
  have hB : (iblk1 V c 4 t : Vec Ideal S1x128 .f32) (ix2 (0 : Fin 1) q) = (V c main_v19 : S1x128.Idx → EReal) (ix2 (0 : Fin 1) q) := by
    show (V c main_v19 : S1x128.Idx → EReal) (((cfg1.win 4).blk t).view.emb (ix2 (0 : Fin 1) q)) = _
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * q.val = q.val; omega
  exact congrArg₂ (· * ·) (congrArg₂ max (congrArg₂ (· + ·) (Finset.sum_congr rfl fun k _ => congrArg₂ (· * ·) (congrArg₂ (· * ·) (hA k) hD) (hW k)) hB) rfl) hS

/-- An index of the array is in point t's block iff each coordinate is in the block's range on its axis. -/
theorem relu_mem (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v32).slice (win1_5.rect t)).set ↔ _
  rw [View.set_slice_whole, Rect.mem_set_unit]
  exact Iff.rfl

/-- Every index of the array lies in the block of the point that owns its row. -/
theorem relu_cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hlt : (i 0).val / 5000 < cfg1.N := by rw [show cfg1.N = 20 from N_1]; omega
  obtain ⟨e00, e01, e10, e11, e20, e21, e30, e31, e40, e41, e50, e51⟩ := relu_idx ⟨(i 0).val / 5000, hlt⟩
  refine ⟨⟨(i 0).val / 5000, hlt⟩, flush1_5 _, ?_⟩
  rw [relu_mem]
  intro a
  match a with
  | ⟨0, _⟩ =>
    show win1_5.index ⟨(i 0).val / 5000, hlt⟩ (0 : Fin 2) * 5000 ≤ (i 0).val
      ∧ (i 0).val < win1_5.index ⟨(i 0).val / 5000, hlt⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, hlt⟩ (1 : Fin 2) * 128 ≤ (i 1).val
      ∧ (i 1).val < win1_5.index ⟨(i 0).val / 5000, hlt⟩ (1 : Fin 2) * 128 + 128
    rw [e51]; omega

/-- After the region its output array is the whole-array function of the arrays it found. -/
theorem relu_array (c : Dev nD) :
    (dat1 V c).arrAt 5 cfg1.N = reluScaled (V c main_v31) (V c main_v18) (V c main_v17) (V c main_arg1) (V c main_v19) :=
  (dat1 V c).arrAt_eq_of_cover 5 (reluScaled (V c main_v31) (V c main_v18) (V c main_v17) (V c main_arg1) (V c main_v19)) (fun t _ => relu_flushed V c t) (relu_cover)

end

end Cert.KernelIdeal.Hand

end
-- ==== Proof.ChainA.lean ====
/-
  What the buffers hold at the first boundaries of the fold through the program, as functions of the arguments.
  Before the first region the host computes, from the edge lists, the out-degree and in-degree of every node
  (a scatter-add of ones), replaces a zero degree by one, raises to the power -1/2, and reshapes the two vectors to
  columns and the two biases to rows; the arguments themselves are untouched.  These are the reference's degree
  normalisations.  The first region then leaves its output array at the features scaled row by row, which is the
  reference's first product; every other buffer passes through the region as it entered (an input window's array is
  read, never written).
-/
import proofs.«115869_j75265006895359_1_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.StableHlo.Run
import proofs.«115869_j75265006895359_1_alg».proof.Proof.Bridge
import proofs.«115869_j75265006895359_1_alg».proof.Proof.HostStages
import proofs.«115869_j75265006895359_1_alg».proof.Proof.HostStretch
import proofs.«115869_j75265006895359_1_alg».proof.Proof.RowScale
import proofs.«115869_j75265006895359_1_alg».proof.Proof.RefRead

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

open Idealize.ShloMosaic.StableHlo

variable (m : (ℓ : Loc nD τ sig) → Buf (Elt Ideal) ℓ) (ρ : Dev nD → PrngReg) (c : Dev nD)

theorem W5_arg0 : W5 m ρ c (Proc.devRef .tc main_arg0) = (m ((c.tc : Thread nD τ).loc main_arg0)) := by
  after_results_simp <;> rfl

theorem W5_arg1 : W5 m ρ c (Proc.devRef .tc main_arg1) = (m ((c.tc : Thread nD τ).loc main_arg1)) := by
  after_results_simp <;> rfl

theorem W5_arg3 : W5 m ρ c (Proc.devRef .tc main_arg3) = (m ((c.tc : Thread nD τ).loc main_arg3)) := by
  after_results_simp <;> rfl

theorem W5_arg5 : W5 m ρ c (Proc.devRef .tc main_arg5) = (m ((c.tc : Thread nD τ).loc main_arg5)) := by
  after_results_simp <;> rfl

theorem W5_arg6 : W5 m ρ c (Proc.devRef .tc main_arg6) = (m ((c.tc : Thread nD τ).loc main_arg6)) := by
  after_results_simp <;> rfl

theorem W5_arg7 : W5 m ρ c (Proc.devRef .tc main_arg7) = (m ((c.tc : Thread nD τ).loc main_arg7)) := by
  after_results_simp <;> rfl

set_option maxHeartbeats 400000 in
theorem W5_v19 : W5 m ρ c (Proc.devRef .tc main_v19) = (rowOf (m ((c.tc : Thread nD τ).loc main_arg2))) := by
  after_results_simp
  rfl

set_option maxHeartbeats 400000 in
theorem W5_v20 : W5 m ρ c (Proc.devRef .tc main_v20) = (rowOf (m ((c.tc : Thread nD τ).loc main_arg4))) := by
  after_results_simp
  rfl

theorem W0_arg5 : W0 m ρ c (Proc.devRef .tc main_arg5) = (m ((c.tc : Thread nD τ).loc main_arg5)) := rfl
theorem W0_arg6 : W0 m ρ c (Proc.devRef .tc main_arg6) = (m ((c.tc : Thread nD τ).loc main_arg6)) := rfl

/-! The stretches before the first region, one at a time (each fact is the stretch's own, at the boundary before it). -/

theorem W1_v3 : W1 m ρ c (Proc.devRef .tc main_v3) = degOf (m ((c.tc : Thread nD τ).loc main_arg5)) :=
  (first_v3 (W0 m ρ c)).trans (congrArg degOf (W0_arg5 m ρ c))
theorem W1_v6 : W1 m ρ c (Proc.devRef .tc main_v6) = degOf (m ((c.tc : Thread nD τ).loc main_arg6)) :=
  (first_v6 (W0 m ρ c)).trans (congrArg degOf (W0_arg6 m ρ c))
theorem W1_v8 : W1 m ρ c (Proc.devRef .tc main_v8) = cmpf (F := Ideal) .ogt (degOf (m ((c.tc : Thread nD τ).loc main_arg5))) (broadcastInDim S100000 ![] bcast_S_S100000 (constant (F := Ideal) S_ .f32 0x00000000#32)) :=
  (first_v8 (W0 m ρ c)).trans (congrArg (fun e => cmpf (F := Ideal) .ogt (degOf e) (broadcastInDim S100000 ![] bcast_S_S100000 (constant (F := Ideal) S_ .f32 0x00000000#32))) (W0_arg5 m ρ c))
theorem W1_cst_3 : W1 m ρ c (Proc.devRef .tc main_cst_3) = constant (F := Ideal) S_ .f32 0x3F800000#32 := first_cst_3 (W0 m ρ c)

theorem W2_v9 : W2 m ρ c (Proc.devRef .tc main_v9) = posDeg (m ((c.tc : Thread nD τ).loc main_arg5)) := by
  refine (where0 (W1 m ρ c)).trans ?_
  rw [W1_v8 m ρ c, W1_v3 m ρ c, W1_cst_3 m ρ c] <;> rfl
theorem W2_v6 : W2 m ρ c (Proc.devRef .tc main_v6) = degOf (m ((c.tc : Thread nD τ).loc main_arg6)) := (where0_v6 (W1 m ρ c)).trans (W1_v6 m ρ c)

theorem W3_v11 : W3 m ρ c (Proc.devRef .tc main_v11) = degNorm (m ((c.tc : Thread nD τ).loc main_arg5)) := by
  refine (mid_v11 (W2 m ρ c)).trans ?_
  rw [W2_v9 m ρ c] <;> rfl
theorem W3_v13 : W3 m ρ c (Proc.devRef .tc main_v13) = cmpf (F := Ideal) .ogt (degOf (m ((c.tc : Thread nD τ).loc main_arg6))) (broadcastInDim S100000 ![] bcast_S_S100000 (constant (F := Ideal) S_ .f32 0x00000000#32)) :=
  (mid_v13 (W2 m ρ c)).trans (congrArg (fun d => cmpf (F := Ideal) .ogt d (broadcastInDim S100000 ![] bcast_S_S100000 (constant (F := Ideal) S_ .f32 0x00000000#32))) (W2_v6 m ρ c))
theorem W3_cst_6 : W3 m ρ c (Proc.devRef .tc main_cst_6) = constant (F := Ideal) S_ .f32 0x3F800000#32 := mid_cst_6 (W2 m ρ c)
theorem W3_v6 : W3 m ρ c (Proc.devRef .tc main_v6) = degOf (m ((c.tc : Thread nD τ).loc main_arg6)) := (mid_v6 (W2 m ρ c)).trans (W2_v6 m ρ c)

theorem W4_v14 : W4 m ρ c (Proc.devRef .tc main_v14) = posDeg (m ((c.tc : Thread nD τ).loc main_arg6)) := by
  refine (where1 (W3 m ρ c)).trans ?_
  rw [W3_v13 m ρ c, W3_v6 m ρ c, W3_cst_6 m ρ c] <;> rfl
theorem W4_v11 : W4 m ρ c (Proc.devRef .tc main_v11) = degNorm (m ((c.tc : Thread nD τ).loc main_arg5)) := (where1_v11 (W3 m ρ c)).trans (W3_v11 m ρ c)

theorem W5_v17 : W5 m ρ c (Proc.devRef .tc main_v17) = (colOf (Cert.ReferenceIdeal.ReadP.val_main_v11 (F := Ideal) (m ((c.tc : Thread nD τ).loc main_arg5)))) :=
  (last_v17 (W4 m ρ c)).trans (congrArg colOf ((W4_v11 m ρ c).trans (degNorm_src _)))
theorem W5_v18 : W5 m ρ c (Proc.devRef .tc main_v18) = (colOf (Cert.ReferenceIdeal.ReadP.val_main_v16 (F := Ideal) (m ((c.tc : Thread nD τ).loc main_arg6)))) :=
  (last_v18 (W4 m ρ c)).trans (congrArg colOf
    ((congrArg (fun p => Host.powf (F := Ideal) p (broadcastInDim S100000 ![] bcast_S_S100000 (constant (F := Ideal) S_ .f32 0xBF000000#32))) (W4_v14 m ρ c)).trans (degNorm_dst _)))

theorem W6_v21 : W6 m ρ c (Proc.devRef .tc main_v21) = Cert.ReferenceIdeal.ReadP.val_main_v19 (F := Ideal) (m ((c.tc : Thread nD τ).loc main_arg0)) (m ((c.tc : Thread nD τ).loc main_arg5)) := by
  refine (W6_arr m ρ c 2).trans ((scale_array (V5 m ρ) c).trans ?_)
  show rowScaled (W5 m ρ c (Proc.devRef .tc main_arg0)) (W5 m ρ c (Proc.devRef .tc main_v17)) = _
  rw [W5_arg0 m ρ c, W5_v17 m ρ c]
  exact scale_bridge _ _

theorem W6_arg1 : W6 m ρ c (Proc.devRef .tc main_arg1) = (m ((c.tc : Thread nD τ).loc main_arg1)) :=
  (W6_of_ne m ρ c main_arg1 (by decide)).trans (W5_arg1 m ρ c)

theorem W6_arg3 : W6 m ρ c (Proc.devRef .tc main_arg3) = (m ((c.tc : Thread nD τ).loc main_arg3)) :=
  (W6_of_ne m ρ c main_arg3 (by decide)).trans (W5_arg3 m ρ c)

theorem W6_arg5 : W6 m ρ c (Proc.devRef .tc main_arg5) = (m ((c.tc : Thread nD τ).loc main_arg5)) :=
  (W6_of_ne m ρ c main_arg5 (by decide)).trans (W5_arg5 m ρ c)

theorem W6_arg6 : W6 m ρ c (Proc.devRef .tc main_arg6) = (m ((c.tc : Thread nD τ).loc main_arg6)) :=
  (W6_of_ne m ρ c main_arg6 (by decide)).trans (W5_arg6 m ρ c)

theorem W6_arg7 : W6 m ρ c (Proc.devRef .tc main_arg7) = (m ((c.tc : Thread nD τ).loc main_arg7)) :=
  (W6_of_ne m ρ c main_arg7 (by decide)).trans (W5_arg7 m ρ c)

theorem W6_v18 : W6 m ρ c (Proc.devRef .tc main_v18) = (colOf (Cert.ReferenceIdeal.ReadP.val_main_v16 (F := Ideal) (m ((c.tc : Thread nD τ).loc main_arg6)))) :=
  (W6_of_ne m ρ c main_v18 (by decide)).trans (W5_v18 m ρ c)

theorem W6_v19 : W6 m ρ c (Proc.devRef .tc main_v19) = (rowOf (m ((c.tc : Thread nD τ).loc main_arg2))) :=
  (W6_of_ne m ρ c main_v19 (by decide)).trans (W5_v19 m ρ c)

theorem W6_v20 : W6 m ρ c (Proc.devRef .tc main_v20) = (rowOf (m ((c.tc : Thread nD τ).loc main_arg4))) :=
  (W6_of_ne m ρ c main_v20 (by decide)).trans (W5_v20 m ρ c)

theorem W6_v17 : W6 m ρ c (Proc.devRef .tc main_v17) = (colOf (Cert.ReferenceIdeal.ReadP.val_main_v11 (F := Ideal) (m ((c.tc : Thread nD τ).loc main_arg5)))) :=
  (W6_arr m ρ c 1).trans (((dat0 (V5 m ρ) c).arrAt_in 1 rfl _).trans ((A_eq0 (V5 m ρ) c 1).trans (W5_v17 m ρ c)))

end Cert.KernelIdeal.Hand

end
-- ==== Proof.ChainB.lean ====
/-
  The boundaries around the second region.  Between the first two regions the host gathers, for every edge, the
  scaled row of the edge's source node and adds it into the row of the edge's target node: the same gather and
  scatter-add, with the same index arithmetic, as the reference's.  The second region leaves its output at `reluScaled`
  of that aggregate, which is the reference's first layer followed by its next scaling.
-/
import proofs.«115869_j75265006895359_1_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.StableHlo.Run
import proofs.«115869_j75265006895359_1_alg».proof.Proof.Bridge
import proofs.«115869_j75265006895359_1_alg».proof.Proof.HostStages
import proofs.«115869_j75265006895359_1_alg».proof.Proof.HostStretch
import proofs.«115869_j75265006895359_1_alg».proof.Proof.ReluLayer
import proofs.«115869_j75265006895359_1_alg».proof.Proof.ChainA

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

open Idealize.ShloMosaic.StableHlo

variable (m : (ℓ : Loc nD τ sig) → Buf (Elt Ideal) ℓ) (ρ : Dev nD → PrngReg) (c : Dev nD)

theorem W7_v31 : W7 m ρ c (Proc.devRef .tc main_v31) = Cert.ReferenceIdeal.ReadP.val_main_v29 (F := Ideal) (m ((c.tc : Thread nD τ).loc main_arg0)) (m ((c.tc : Thread nD τ).loc main_arg5)) (m ((c.tc : Thread nD τ).loc main_arg6)) := by
  refine (between1 (W6 m ρ c)).trans ?_
  rw [W6_v21 m ρ c, W6_arg5 m ρ c, W6_arg6 m ρ c]
  exact edgeSum_first _ _ _

theorem W7_arg1 : W7 m ρ c (Proc.devRef .tc main_arg1) = (m ((c.tc : Thread nD τ).loc main_arg1)) := by
  after_results_simp
  exact W6_arg1 m ρ c

theorem W7_arg3 : W7 m ρ c (Proc.devRef .tc main_arg3) = (m ((c.tc : Thread nD τ).loc main_arg3)) := by
  after_results_simp
  exact W6_arg3 m ρ c

theorem W7_arg5 : W7 m ρ c (Proc.devRef .tc main_arg5) = (m ((c.tc : Thread nD τ).loc main_arg5)) := by
  after_results_simp
  exact W6_arg5 m ρ c

theorem W7_arg6 : W7 m ρ c (Proc.devRef .tc main_arg6) = (m ((c.tc : Thread nD τ).loc main_arg6)) := by
  after_results_simp
  exact W6_arg6 m ρ c

theorem W7_arg7 : W7 m ρ c (Proc.devRef .tc main_arg7) = (m ((c.tc : Thread nD τ).loc main_arg7)) := by
  after_results_simp
  exact W6_arg7 m ρ c

theorem W7_v17 : W7 m ρ c (Proc.devRef .tc main_v17) = (colOf (Cert.ReferenceIdeal.ReadP.val_main_v11 (F := Ideal) (m ((c.tc : Thread nD τ).loc main_arg5)))) := by
  after_results_simp
  exact W6_v17 m ρ c

theorem W7_v18 : W7 m ρ c (Proc.devRef .tc main_v18) = (colOf (Cert.ReferenceIdeal.ReadP.val_main_v16 (F := Ideal) (m ((c.tc : Thread nD τ).loc main_arg6)))) := by
  after_results_simp
  exact W6_v18 m ρ c

theorem W7_v19 : W7 m ρ c (Proc.devRef .tc main_v19) = (rowOf (m ((c.tc : Thread nD τ).loc main_arg2))) := by
  after_results_simp
  exact W6_v19 m ρ c

theorem W7_v20 : W7 m ρ c (Proc.devRef .tc main_v20) = (rowOf (m ((c.tc : Thread nD τ).loc main_arg4))) := by
  after_results_simp
  exact W6_v20 m ρ c

theorem W8_v32 : W8 m ρ c (Proc.devRef .tc main_v32) = Cert.ReferenceIdeal.ReadP.val_main_v40 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) := by
  refine (W8_arr m ρ c 5).trans ((relu_array (V7 m ρ) c).trans ?_)
  show reluScaled (W7 m ρ c (Proc.devRef .tc main_v31)) (W7 m ρ c (Proc.devRef .tc main_v18)) (W7 m ρ c (Proc.devRef .tc main_v17)) (W7 m ρ c (Proc.devRef .tc main_arg1)) (W7 m ρ c (Proc.devRef .tc main_v19)) = _
  rw [W7_v31 m ρ c, W7_v18 m ρ c, W7_v17 m ρ c, W7_arg1 m ρ c, W7_v19 m ρ c]
  exact relu_bridge _ _ _ _ _

theorem W8_arg3 : W8 m ρ c (Proc.devRef .tc main_arg3) = (m ((c.tc : Thread nD τ).loc main_arg3)) :=
  (W8_of_ne m ρ c main_arg3 (by decide)).trans (W7_arg3 m ρ c)

theorem W8_arg5 : W8 m ρ c (Proc.devRef .tc main_arg5) = (m ((c.tc : Thread nD τ).loc main_arg5)) :=
  (W8_of_ne m ρ c main_arg5 (by decide)).trans (W7_arg5 m ρ c)

theorem W8_arg6 : W8 m ρ c (Proc.devRef .tc main_arg6) = (m ((c.tc : Thread nD τ).loc main_arg6)) :=
  (W8_of_ne m ρ c main_arg6 (by decide)).trans (W7_arg6 m ρ c)

theorem W8_arg7 : W8 m ρ c (Proc.devRef .tc main_arg7) = (m ((c.tc : Thread nD τ).loc main_arg7)) :=
  (W8_of_ne m ρ c main_arg7 (by decide)).trans (W7_arg7 m ρ c)

theorem W8_v20 : W8 m ρ c (Proc.devRef .tc main_v20) = (rowOf (m ((c.tc : Thread nD τ).loc main_arg4))) :=
  (W8_of_ne m ρ c main_v20 (by decide)).trans (W7_v20 m ρ c)

theorem W8_v18 : W8 m ρ c (Proc.devRef .tc main_v18) = (colOf (Cert.ReferenceIdeal.ReadP.val_main_v16 (F := Ideal) (m ((c.tc : Thread nD τ).loc main_arg6)))) :=
  (W8_arr m ρ c 1).trans (((dat1 (V7 m ρ) c).arrAt_in 1 rfl _).trans ((A_eq1 (V7 m ρ) c 1).trans (W7_v18 m ρ c)))

end Cert.KernelIdeal.Hand

end
-- ==== Proof.ChainC.lean ====
/-
  The last boundaries.  The same gather and scatter-add between the second and third regions; the third region leaves
  the second layer's output; after it the host adds the rows of each graph's nodes (a scatter-add by graph index) and
  divides by the graph's node count, at least one: the reference's pooling, operation for operation.  So the result
  buffer ends at the reference's last stage as a function of the eight arguments.
-/
import proofs.«115869_j75265006895359_1_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.StableHlo.Run
import proofs.«115869_j75265006895359_1_alg».proof.Proof.Bridge
import proofs.«115869_j75265006895359_1_alg».proof.Proof.HostStages
import proofs.«115869_j75265006895359_1_alg».proof.Proof.HostStretch
import proofs.«115869_j75265006895359_1_alg».proof.Proof.PlainLayer
import proofs.«115869_j75265006895359_1_alg».proof.Proof.ChainB

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

open Idealize.ShloMosaic.StableHlo

variable (m : (ℓ : Loc nD τ sig) → Buf (Elt Ideal) ℓ) (ρ : Dev nD → PrngReg) (c : Dev nD)

theorem W9_v42 : W9 m ρ c (Proc.devRef .tc main_v42) = Cert.ReferenceIdeal.ReadP.val_main_v50 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) := by
  refine (between2 (W8 m ρ c)).trans ?_
  rw [W8_v32 m ρ c, W8_arg5 m ρ c, W8_arg6 m ρ c]
  exact edgeSum_second _ _ _ _ _

theorem W9_arg3 : W9 m ρ c (Proc.devRef .tc main_arg3) = (m ((c.tc : Thread nD τ).loc main_arg3)) := by
  after_results_simp
  exact W8_arg3 m ρ c

theorem W9_arg7 : W9 m ρ c (Proc.devRef .tc main_arg7) = (m ((c.tc : Thread nD τ).loc main_arg7)) := by
  after_results_simp
  exact W8_arg7 m ρ c

theorem W9_v18 : W9 m ρ c (Proc.devRef .tc main_v18) = (colOf (Cert.ReferenceIdeal.ReadP.val_main_v16 (F := Ideal) (m ((c.tc : Thread nD τ).loc main_arg6)))) := by
  after_results_simp
  exact W8_v18 m ρ c

theorem W9_v20 : W9 m ρ c (Proc.devRef .tc main_v20) = (rowOf (m ((c.tc : Thread nD τ).loc main_arg4))) := by
  after_results_simp
  exact W8_v20 m ρ c

theorem W10_v43 : W10 m ρ c (Proc.devRef .tc main_v43) = Cert.ReferenceIdeal.ReadP.val_main_v57 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W10_arr m ρ c 5).trans ((plain_array (V9 m ρ) c).trans ?_)
  show affineRows (W9 m ρ c (Proc.devRef .tc main_v42)) (W9 m ρ c (Proc.devRef .tc main_v18)) (W9 m ρ c (Proc.devRef .tc main_arg3)) (W9 m ρ c (Proc.devRef .tc main_v20)) = _
  rw [W9_v42 m ρ c, W9_v18 m ρ c, W9_arg3 m ρ c, W9_v20 m ρ c]
  exact plain_bridge _ _ _ _ _ _ _

theorem W10_arg7 : W10 m ρ c (Proc.devRef .tc main_arg7) = (m ((c.tc : Thread nD τ).loc main_arg7)) :=
  (W10_of_ne m ρ c main_arg7 (by decide)).trans (W9_arg7 m ρ c)

theorem W11_v55 : W11 m ρ c (Proc.devRef .tc main_v55) = Cert.ReferenceIdeal.ReadP.val_main_v69 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (pooling (W10 m ρ c)).trans ?_
  rw [W10_v43 m ρ c, W10_arg7 m ρ c]
  exact graphMean_ref _ _ _ _ _ _ _ _

end Cert.KernelIdeal.Hand

end
-- ==== Proof.lean ====
/-
  The certificate of a two-layer graph convolution with average pooling, a tiled kernel against its plain reference.

  Both programs compute, from node features X, weight matrices W1, W2, biases b1, b2, an edge list (src, dst) and a
  graph index per node:  the out- and in-degree normalisations  s = deg_out^(-1/2),  d = deg_in^(-1/2)
  (a zero degree read as one);  H1 = relu( (d ⊙ A(s ⊙ X)) W1 + b1 );  H2 = (d ⊙ A(s ⊙ H1)) W2 + b2,  where A gathers
  each edge's source row and adds it into the edge's target row and ⊙ scales rows;  and the mean of H2's rows over
  each graph.  The kernel does the three row-wise dense steps — s ⊙ X;  relu((d ⊙ ·) W1 + b1) followed by s ⊙ ·;
  (d ⊙ ·) W2 + b2 — in tiled regions over 20 blocks of 5000 rows, and leaves the degree computation, the two
  gather / scatter-add passes and the pooling to the same host operations the reference uses.

  So the two results are one expression of the arguments.  The proof reads the kernel's result off the last boundary
  of its run (KernelRun), shows region by region that the array a region leaves is a whole-array function of the arrays
  it found (RowScale, ReluLayer, PlainLayer over BlockOps and DenseLayer: the blocks tile the array; a product with a
  weight matrix into a zero accumulator is the plain sum over the 128 inner places; a change of float format is the
  identity on extended reals), that each of these functions is the reference's stage read index by index (Bridge), and
  walks the buffers through the boundaries (ChainA, ChainB, ChainC).  Only reading at an index and reordering nothing:
  no law of the extended reals that needs finiteness is used, so the precondition is never opened.
  The three frames are the generated ones (the reference's is its run with the result dropped); the idealization
  rewrote no operation, so `preserves` is trivial.
-/
import proofs.«115869_j75265006895359_1_alg».proof.Defs
import proofs.«115869_j75265006895359_1_alg».proof.Proof.Gen.Kernel
import proofs.«115869_j75265006895359_1_alg».proof.Proof.Gen.Kernel.Skeleton
import proofs.«115869_j75265006895359_1_alg».proof.Proof.Gen.Kernel.Launch
import proofs.«115869_j75265006895359_1_alg».proof.Proof.Gen.Kernel.Points
import proofs.«115869_j75265006895359_1_alg».proof.Proof.Gen.Kernel.Frame
import proofs.«115869_j75265006895359_1_alg».proof.Proof.Gen.KernelIdeal
import proofs.«115869_j75265006895359_1_alg».proof.Proof.Gen.KernelIdeal.Skeleton
import proofs.«115869_j75265006895359_1_alg».proof.Proof.Gen.KernelIdeal.Launch
import proofs.«115869_j75265006895359_1_alg».proof.Proof.Gen.KernelIdeal.Points
import proofs.«115869_j75265006895359_1_alg».proof.Proof.Gen.KernelIdeal.Frame
import proofs.«115869_j75265006895359_1_alg».proof.Proof.Gen.ReferenceIdeal
import proofs.«115869_j75265006895359_1_alg».proof.Proof.RefRun
import proofs.«115869_j75265006895359_1_alg».proof.Proof.RefRead
import proofs.«115869_j75265006895359_1_alg».proof.Proof.Gen.Pre_finite_inputs
import proofs.«115869_j75265006895359_1_alg».proof.Proof.KernelRun
import proofs.«115869_j75265006895359_1_alg».proof.Proof.ChainC
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both programs end with the same result: the kernel's result buffer
    ends at the last boundary's contents, which are the reference's last stage of the kernel's arguments; the
    reference's ends at that stage of its own arguments, which are the same arrays. -/
theorem algebraic : Cert.algebraic_KernelIdeal_ReferenceIdeal := by
  intro m ρ m' ρ' _ hagree
  refine ⟨fun c => Cert.KernelIdeal.Gen.W11 m ρ c (Proc.devRef .tc Cert.KernelIdeal.main_v55),
    Cert.KernelIdeal.Hand.run_last (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7⟩ := hagree c
  show Cert.ReferenceIdeal.ValueP.res_main_v69 m' c
    = Cert.KernelIdeal.Gen.W11 m ρ c (Proc.devRef .tc Cert.KernelIdeal.main_v55)
  rw [Cert.ReferenceIdeal.ReadP.val_main_v69_eq, Cert.KernelIdeal.Hand.W11_v55 m ρ c, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
